-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S8192x2048 : Shape := ⟨2, ![8192, 2048]⟩
abbrev S2048 : Shape := ⟨1, ![2048]⟩
abbrev S2048x8192 : Shape := ⟨2, ![2048, 8192]⟩
abbrev S8192 : Shape := ⟨1, ![8192]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S2048 : S_.BroadcastsInDim S2048 (![] : Fin 0 → Fin S2048.rank)
  reducesTo_S2048_S_d0 : S2048.ReducesTo [0] S_
  bcast_S_S2048x8192 : S_.BroadcastsInDim S2048x8192 (![] : Fin 0 → Fin S2048x8192.rank)
  reducesTo_S2048x8192_S_d0_1 : S2048x8192.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_v13 : IVec S_ 1) (main_v16 : IVec S2048x8192 1) : IVec S_ 1 :=
  let main_c_5 : IVec S_ 1 := constantI S_ 1 1#1
  let main_v17 : IVec S_ 1 := (fun x v => Host.reduce IntOp.andi x v reducesTo_S2048x8192_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  main_v23

def fn {F : FTy → Type} [FloatOps F] (main_arg0 : FVec F S4x2048x2048 .f32) (main_arg1 : FVec F S8192x2048 .f32) (main_arg2 : FVec F S2048 .f32) (main_arg3 : FVec F S2048x8192 .f32) (main_arg4 : FVec F S8192 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x8192 .f32 := Host.absf main_arg3
  let main_cst_4 : FVec F S_ .f32 := constant S_ .f32 0x7F800000#32
  let main_v15 : FVec F S2048x8192 .f32 := broadcastInDim S2048x8192 ![] bcast_S_S2048x8192 main_cst_4
  let main_v16 : IVec S2048x8192 1 := cmpf .olt main_v14 main_v15
  fn_part1 (F := F) main_arg4 main_v13 main_v16
-- ==== Kernel.lean ====
abbrev S4x2048x2048 : Shape := ⟨3, ![4, 2048, 2048]⟩
abbrev S8192x2048 : Shape := ⟨2, ![8192, 2048]⟩
abbrev S2048 : Shape := ⟨1, ![2048]⟩
abbrev S2048x8192 : Shape := ⟨2, ![2048, 8192]⟩
abbrev S8192 : Shape := ⟨1, ![8192]⟩
abbrev S1x2048 : Shape := ⟨2, ![1, 2048]⟩
abbrev S1x8192 : Shape := ⟨2, ![1, 8192]⟩
abbrev S_ : Shape := ⟨0, ![]⟩
abbrev S8192x8192 : Shape := ⟨2, ![8192, 8192]⟩
abbrev S256x2048 : Shape := ⟨2, ![256, 2048]⟩
abbrev S2048x2048 : Shape := ⟨2, ![2048, 2048]⟩
abbrev S256 : Shape := ⟨1, ![256]⟩
abbrev S256x1 : Shape := ⟨2, ![256, 1]⟩
abbrev S128x8192 : Shape := ⟨2, ![128, 8192]⟩
abbrev S1024x8192 : Shape := ⟨2, ![1024, 8192]⟩
abbrev S128x1024 : Shape := ⟨2, ![128, 1024]⟩
abbrev S128 : Shape := ⟨1, ![128]⟩
abbrev S128x1 : Shape := ⟨2, ![128, 1]⟩

abbrev nBuf : Space → Nat
  | .hbm => 57
  | .vmem => 12
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S2048, .f32⟩
  | .hbm, ⟨3, _⟩ => ⟨S2048x8192, .f32⟩
  | .hbm, ⟨4, _⟩ => ⟨S8192, .f32⟩
  | .hbm, ⟨5, _⟩ => ⟨S8192x2048, .f32⟩
  | .hbm, ⟨6, _⟩ => ⟨S1x2048, .f32⟩
  | .hbm, ⟨7, _⟩ => ⟨S1x8192, .f32⟩
  | .hbm, ⟨8, _⟩ => ⟨S8192x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .bf16⟩
  | .hbm, ⟨31, _⟩ => ⟨S2048x8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2048x8192, .f32⟩
  | .hbm, ⟨41, _⟩ => ⟨S2048x8192, .f32⟩
  | .hbm, ⟨42, _⟩ => ⟨S2048x8192, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S2048x8192, .f32⟩
  | .hbm, ⟨47, _⟩ => ⟨S2048x8192, .f32⟩
  | .hbm, ⟨48, _⟩ => ⟨S_, .f32⟩
  | .hbm, ⟨49, _⟩ => ⟨S2048x8192, .f32⟩
  | .hbm, ⟨50, _⟩ => ⟨S2048x8192, .f32⟩
  | .hbm, ⟨51, _⟩ => ⟨S2048x8192, .f32⟩
  | .hbm, ⟨52, _⟩ => ⟨S2048x8192, .f32⟩
  | .hbm, ⟨53, _⟩ => ⟨S2048x8192, .bf16⟩
  | .hbm, ⟨54, _⟩ => ⟨S8192x8192, .f32⟩
  | .hbm, ⟨55, _⟩ => ⟨S8192x2048, .f32⟩
  | .hbm, ⟨56, _⟩ => ⟨S4x2048x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S1x2048, .f32⟩
  | .local _ .vmem, ⟨4, _⟩ => ⟨S256x2048, .f32⟩
  | .local _ .vmem, ⟨5, _⟩ => ⟨S256x2048, .f32⟩
  | .local _ .vmem, ⟨6, _⟩ => ⟨S128x8192, .f32⟩
  | .local _ .vmem, ⟨7, _⟩ => ⟨S128x8192, .f32⟩
  | .local _ .vmem, ⟨8, _⟩ => ⟨S1024x8192, .bf16⟩
  | .local _ .vmem, ⟨9, _⟩ => ⟨S1x8192, .f32⟩
  | .local _ .vmem, ⟨10, _⟩ => ⟨S128x1024, .f32⟩
  | .local _ .vmem, ⟨11, _⟩ => ⟨S128x1024, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_cst_4 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_5 : Ref sig .tc := ⟨.hbm, 32, rfl⟩
abbrev main_v16 : Ref sig .tc := ⟨.hbm, 33, rfl⟩
abbrev main_cst_6 : Ref sig .tc := ⟨.hbm, 34, rfl⟩
abbrev main_v17 : Ref sig .tc := ⟨.hbm, 35, rfl⟩
abbrev main_cst_7 : Ref sig .tc := ⟨.hbm, 36, rfl⟩
abbrev main_v18 : Ref sig .tc := ⟨.hbm, 37, rfl⟩
abbrev main_cst_8 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_9 : Ref sig .tc := ⟨.hbm, 43, rfl⟩
abbrev main_cst_10 : Ref sig .tc := ⟨.hbm, 44, rfl⟩
abbrev main_call3_v0 : Ref sig .tc := ⟨.hbm, 45, rfl⟩
abbrev main_call3_v1 : Ref sig .tc := ⟨.hbm, 46, rfl⟩
abbrev main_call3_v2 : Ref sig .tc := ⟨.hbm, 47, rfl⟩
abbrev main_call3_v3 : Ref sig .tc := ⟨.hbm, 48, rfl⟩
abbrev main_call3_v4 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 64], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S128x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S1024x8192 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S1x8192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S128x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S4x2048x2048_S8192x2048 : S4x2048x2048.ShapeCasts S8192x2048
  shapeCasts_S2048_S1x2048 : S2048.ShapeCasts S1x2048
  shapeCasts_S8192_S1x8192 : S8192.ShapeCasts S1x8192
  reducesTo_S8192x2048_S_d0_1 : S8192x2048.ReducesTo [0, 1] S_
  h_S_ : 0 < S_.numel
  bcast_S_S8192x2048 : S_.BroadcastsInDim S8192x2048 (![] : Fin 0 → Fin S8192x2048.rank)
  bitsLt_bf16_f32 : FTy.bits .bf16 < FTy.bits .f32
  reducesTo_S2048x8192_S_d0_1 : S2048x8192.ReducesTo [0, 1] S_
  bcast_S_S2048x8192 : S_.BroadcastsInDim S2048x8192 (![] : Fin 0 → Fin S2048x8192.rank)
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  reduces_S256x2048_S256 : S256x2048.Reduces [1] S256
  shapeCasts_S256_S256x1 : S256.ShapeCasts S256x1
  broadcasts_S256x1_S256x2048 : S256x1.Broadcasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  reduces_S128x8192_S128 : S128x8192.Reduces [1] S128
  shapeCasts_S128_S128x1 : S128.ShapeCasts S128x1
  broadcasts_S128x1_S128x8192 : S128x1.Broadcasts S128x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S128x8192 : S1x8192.Broadcasts S128x8192
  inb_S1024x8192_S1024x8192_0_0 : ∀ a, (![0, 0] : Fin 2 → Nat) a + S1024x8192.size a ≤ S1024x8192.size a
  h_S1024x8192 : 0 < S1024x8192.numel
  shapeCasts_S1024x8192_S1024x8192 : S1024x8192.ShapeCasts S1024x8192
  inb_S128x1024_S128x1024_0_0 : ∀ a, (![0, 0] : Fin 2 → Nat) a + S128x1024.size a ≤ S128x1024.size a
  h_S128x1024 : 0 < S128x1024.numel
  shapeCasts_S8192x2048_S4x2048x2048 : S8192x2048.ShapeCasts S4x2048x2048
  dot_S256x2048_S2048x2048_S256x2048_1_1_0_0_n_n_wf : DotDims.WF S256x2048 S2048x2048 S256x2048 [1] [1] [0] [0] [] []
  dot_S128x8192_S1024x8192_S128x1024_1_1_0_0_n_n_wf : DotDims.WF S128x8192 S1024x8192 S128x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S8192x2048.size a
  hwx0_1 : ∀ i : grid0.Coords, EltTy.bits .bf16 = 32 ∨ (Rect.block (s := S8192x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S8192x8192.size a
  hwx0_3 : ∀ i : grid0.Coords, EltTy.bits .f32 = 32 ∨ (Rect.block (s := S8192x8192) S256x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x8192.size a ≤ S8192x8192.size a
  hwx1_0 : ∀ i : grid1.Coords, EltTy.bits .f32 = 32 ∨ (Rect.block (s := S8192x8192) S128x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x8192.size a ≤ S2048x8192.size a
  hwx1_1 : ∀ i : grid1.Coords, EltTy.bits .bf16 = 32 ∨ (Rect.block (s := S2048x8192) S1024x8192.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x8192.size a ≤ S1x8192.size a
  hwx1_2 : ∀ i : grid1.Coords, EltTy.bits .f32 = 32 ∨ (Rect.block (s := S1x8192) S1x8192.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x1024.size a ≤ S8192x2048.size a
  hwx1_3 : ∀ i : grid1.Coords, EltTy.bits .f32 = 32 ∨ (Rect.block (s := S8192x2048) S128x1024.size (cc1_transform_3 i) (hinb1_3 i)).WholeWords (EltTy.packing .f32)

variable [Facts₀]

def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf
def dot_S128x8192_S1024x8192_S128x1024_1_1_0_0_n_n : DotDims S128x8192 S1024x8192 S128x1024 where
  lhsContracting := [1]
  rhsContracting := [1]
  lhsNonContracting := [0]
  rhsNonContracting := [0]
  lhsBatch := []
  rhsBatch := []
  wf := dot_S128x8192_S1024x8192_S128x1024_1_1_0_0_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S128x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S1024x8192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x8192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S128x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x2048 : Shape := ⟨3, ![4, 2048, 2048]⟩
abbrev S8192x2048 : Shape := ⟨2, ![8192, 2048]⟩
abbrev S2048 : Shape := ⟨1, ![2048]⟩
abbrev S2048x8192 : Shape := ⟨2, ![2048, 8192]⟩
abbrev S8192 : Shape := ⟨1, ![8192]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x8192 : Shape := ⟨3, ![4, 2048, 8192]⟩
abbrev S1x1x8192 : Shape := ⟨3, ![1, 1, 8192]⟩

abbrev nBuf : Space → Nat
  | .hbm => 145
  | .vmem => 0
  | .smem => 0
  | _ => 0

abbrev hbmTy0_0 (i : Nat) : BufTy := match i % 128 with
  | 0 => ⟨S4x2048x2048, .f32⟩
  | 1 => ⟨S8192x2048, .f32⟩
  | 2 => ⟨S2048, .f32⟩
  | 3 => ⟨S2048x8192, .f32⟩
  | 4 => ⟨S8192, .f32⟩
  | 5 => ⟨S4x2048x2048, .f32⟩
  | 6 => ⟨S_, .f32⟩
  | 7 => ⟨S4x2048, .f32⟩
  | 8 => ⟨S4x2048x1, .f32⟩
  | 9 => ⟨S_, .f32⟩
  | 10 => ⟨S4x2048x1, .f32⟩
  | 11 => ⟨S4x2048x1, .f32⟩
  | 12 => ⟨S_, .f32⟩
  | 13 => ⟨S4x2048x1, .f32⟩
  | 14 => ⟨S4x2048x1, .f32⟩
  | 15 => ⟨S4x2048x1, .f32⟩
  | 16 => ⟨S4x2048x2048, .f32⟩
  | 17 => ⟨S4x2048x2048, .f32⟩
  | 18 => ⟨S1x1x2048, .f32⟩
  | 19 => ⟨S4x2048x2048, .f32⟩
  | 20 => ⟨S4x2048x2048, .f32⟩
  | 21 => ⟨S4x2048x2048, .f32⟩
  | 22 => ⟨S_, .f32⟩
  | 23 => ⟨S4x2048, .f32⟩
  | 24 => ⟨S4x2048x1, .f32⟩
  | 25 => ⟨S_, .f32⟩
  | 26 => ⟨S_, .f32⟩
  | 27 => ⟨S4x2048x1, .f32⟩
  | 28 => ⟨S4x2048x1, .f32⟩
  | 29 => ⟨S_, .f32⟩
  | 30 => ⟨S4x2048x1, .f32⟩
  | 31 => ⟨S4x2048x1, .f32⟩
  | 32 => ⟨S4x2048x2048, .f32⟩
  | 33 => ⟨S4x2048x2048, .f32⟩
  | 34 => ⟨S4x2048x2048, .f32⟩
  | 35 => ⟨S_, .i32⟩
  | 36 => ⟨S_, .i32⟩
  | 37 => ⟨S_, .f32⟩
  | 38 => ⟨S4x2048x2048, .f32⟩
  | 39 => ⟨S4x2048x2048, .f32⟩
  | 40 => ⟨S_, .f32⟩
  | 41 => ⟨S4x2048x2048, .f32⟩
  | 42 => ⟨S4x2048x2048, .f32⟩
  | 43 => ⟨S4x2048x2048, .f32⟩
  | 44 => ⟨S4x2048x2048, .f32⟩
  | 45 => ⟨S4x2048x2048, .f32⟩
  | 46 => ⟨S4x2048x2048, .f32⟩
  | 47 => ⟨S8192x2048, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S8192x2048, .f32⟩
  | 58 => ⟨S8192x2048, .f32⟩
  | 59 => ⟨S8192x2048, .f32⟩
  | 60 => ⟨S_, .i32⟩
  | 61 => ⟨S_, .i32⟩
  | 62 => ⟨S_, .f32⟩
  | 63 => ⟨S8192x2048, .f32⟩
  | 64 => ⟨S8192x2048, .f32⟩
  | 65 => ⟨S_, .f32⟩
  | 66 => ⟨S8192x2048, .f32⟩
  | 67 => ⟨S8192x2048, .f32⟩
  | 68 => ⟨S8192x2048, .f32⟩
  | 69 => ⟨S8192x2048, .f32⟩
  | 70 => ⟨S8192x2048, .f32⟩
  | 71 => ⟨S8192x2048, .f32⟩
  | 72 => ⟨S4x2048x8192, .f32⟩
  | 73 => ⟨S_, .f32⟩
  | 74 => ⟨S4x2048x8192, .f32⟩
  | 75 => ⟨S4x2048x8192, .f32⟩
  | 76 => ⟨S4x2048x8192, .f32⟩
  | 77 => ⟨S4x2048x8192, .f32⟩
  | 78 => ⟨S_, .f32⟩
  | 79 => ⟨S4x2048, .f32⟩
  | 80 => ⟨S4x2048x1, .f32⟩
  | 81 => ⟨S_, .f32⟩
  | 82 => ⟨S4x2048x1, .f32⟩
  | 83 => ⟨S4x2048x1, .f32⟩
  | 84 => ⟨S_, .f32⟩
  | 85 => ⟨S4x2048x1, .f32⟩
  | 86 => ⟨S4x2048x1, .f32⟩
  | 87 => ⟨S4x2048x1, .f32⟩
  | 88 => ⟨S4x2048x8192, .f32⟩
  | 89 => ⟨S4x2048x8192, .f32⟩
  | 90 => ⟨S1x1x8192, .f32⟩
  | 91 => ⟨S4x2048x8192, .f32⟩
  | 92 => ⟨S4x2048x8192, .f32⟩
  | 93 => ⟨S4x2048x8192, .f32⟩
  | 94 => ⟨S_, .f32⟩
  | 95 => ⟨S4x2048, .f32⟩
  | 96 => ⟨S4x2048x1, .f32⟩
  | 97 => ⟨S_, .f32⟩
  | 98 => ⟨S_, .f32⟩
  | 99 => ⟨S4x2048x1, .f32⟩
  | 100 => ⟨S4x2048x1, .f32⟩
  | 101 => ⟨S_, .f32⟩
  | 102 => ⟨S4x2048x1, .f32⟩
  | 103 => ⟨S4x2048x1, .f32⟩
  | 104 => ⟨S4x2048x8192, .f32⟩
  | 105 => ⟨S4x2048x8192, .f32⟩
  | 106 => ⟨S4x2048x8192, .f32⟩
  | 107 => ⟨S_, .i32⟩
  | 108 => ⟨S_, .i32⟩
  | 109 => ⟨S_, .f32⟩
  | 110 => ⟨S4x2048x8192, .f32⟩
  | 111 => ⟨S4x2048x8192, .f32⟩
  | 112 => ⟨S_, .f32⟩
  | 113 => ⟨S4x2048x8192, .f32⟩
  | 114 => ⟨S4x2048x8192, .f32⟩
  | 115 => ⟨S4x2048x8192, .f32⟩
  | 116 => ⟨S4x2048x8192, .f32⟩
  | 117 => ⟨S4x2048x8192, .f32⟩
  | 118 => ⟨S4x2048x8192, .f32⟩
  | 119 => ⟨S2048x8192, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S4x2048x2048, .f32⟩

abbrev hbmTy0_1 (i : Nat) : BufTy := match i % 128 with
  | 0 => ⟨S_, .f32⟩
  | 1 => ⟨S2048x8192, .f32⟩
  | 2 => ⟨S2048x8192, .f32⟩
  | 3 => ⟨S2048x8192, .f32⟩
  | 4 => ⟨S_, .i32⟩
  | 5 => ⟨S_, .i32⟩
  | 6 => ⟨S_, .f32⟩
  | 7 => ⟨S2048x8192, .f32⟩
  | 8 => ⟨S2048x8192, .f32⟩
  | 9 => ⟨S_, .f32⟩
  | 10 => ⟨S2048x8192, .f32⟩
  | 11 => ⟨S2048x8192, .f32⟩
  | 12 => ⟨S2048x8192, .f32⟩
  | 13 => ⟨S2048x8192, .f32⟩
  | 14 => ⟨S2048x8192, .f32⟩
  | 15 => ⟨S2048x8192, .f32⟩
  | 16 => ⟨S4x2048x2048, .f32⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c : Ref sig .tc := ⟨.hbm, 35, rfl⟩
abbrev main_c_5 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_cst_7 : Ref sig .tc := ⟨.hbm, 50, rfl⟩
abbrev main_v29 : Ref sig .tc := ⟨.hbm, 51, rfl⟩
abbrev main_cst_8 : Ref sig .tc := ⟨.hbm, 52, rfl⟩
abbrev main_call3_v0 : Ref sig .tc := ⟨.hbm, 53, rfl⟩
abbrev main_v30 : Ref sig .tc := ⟨.hbm, 54, rfl⟩
abbrev main_cst_9 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c_10 : Ref sig .tc := ⟨.hbm, 60, rfl⟩
abbrev main_c_11 : Ref sig .tc := ⟨.hbm, 61, rfl⟩
abbrev main_call5_v0 : Ref sig .tc := ⟨.hbm, 62, rfl⟩
abbrev main_call5_v1 : Ref sig .tc := ⟨.hbm, 63, rfl⟩
abbrev main_call5_v2 : Ref sig .tc := ⟨.hbm, 64, rfl⟩
abbrev main_call5_v3 : Ref sig .tc := ⟨.hbm, 65, rfl⟩
abbrev main_call5_v4 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_call6_cst : Ref sig .tc := ⟨.hbm, 73, rfl⟩
abbrev main_call6_v0 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_12 : Ref sig .tc := ⟨.hbm, 78, rfl⟩
abbrev main_v44 : Ref sig .tc := ⟨.hbm, 79, rfl⟩
abbrev main_v45 : Ref sig .tc := ⟨.hbm, 80, rfl⟩
abbrev main_cst_13 : Ref sig .tc := ⟨.hbm, 81, rfl⟩
abbrev main_v46 : Ref sig .tc := ⟨.hbm, 82, rfl⟩
abbrev main_v47 : Ref sig .tc := ⟨.hbm, 83, rfl⟩
abbrev main_cst_14 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_15 : Ref sig .tc := ⟨.hbm, 94, rfl⟩
abbrev main_v57 : Ref sig .tc := ⟨.hbm, 95, rfl⟩
abbrev main_v58 : Ref sig .tc := ⟨.hbm, 96, rfl⟩
abbrev main_cst_16 : Ref sig .tc := ⟨.hbm, 97, rfl⟩
abbrev main_call7_v0 : Ref sig .tc := ⟨.hbm, 98, rfl⟩
abbrev main_call7_v1 : Ref sig .tc := ⟨.hbm, 99, rfl⟩
abbrev main_v59 : Ref sig .tc := ⟨.hbm, 100, rfl⟩
abbrev main_cst_17 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_c_18 : Ref sig .tc := ⟨.hbm, 107, rfl⟩
abbrev main_c_19 : Ref sig .tc := ⟨.hbm, 108, rfl⟩
abbrev main_call9_v0 : Ref sig .tc := ⟨.hbm, 109, rfl⟩
abbrev main_call9_v1 : Ref sig .tc := ⟨.hbm, 110, rfl⟩
abbrev main_call9_v2 : Ref sig .tc := ⟨.hbm, 111, rfl⟩
abbrev main_call9_v3 : Ref sig .tc := ⟨.hbm, 112, rfl⟩
abbrev main_call9_v4 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_cst_20 : Ref sig .tc := ⟨.hbm, 120, rfl⟩
abbrev main_v71 : Ref sig .tc := ⟨.hbm, 121, rfl⟩
abbrev main_cst_21 : Ref sig .tc := ⟨.hbm, 122, rfl⟩
abbrev main_v72 : Ref sig .tc := ⟨.hbm, 123, rfl⟩
abbrev main_cst_22 : Ref sig .tc := ⟨.hbm, 124, rfl⟩
abbrev main_call10_v0 : Ref sig .tc := ⟨.hbm, 125, rfl⟩
abbrev main_v73 : Ref sig .tc := ⟨.hbm, 126, rfl⟩
abbrev main_cst_23 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_c_24 : Ref sig .tc := ⟨.hbm, 132, rfl⟩
abbrev main_c_25 : Ref sig .tc := ⟨.hbm, 133, rfl⟩
abbrev main_call12_v0 : Ref sig .tc := ⟨.hbm, 134, rfl⟩
abbrev main_call12_v1 : Ref sig .tc := ⟨.hbm, 135, rfl⟩
abbrev main_call12_v2 : Ref sig .tc := ⟨.hbm, 136, rfl⟩
abbrev main_call12_v3 : Ref sig .tc := ⟨.hbm, 137, rfl⟩
abbrev main_call12_v4 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩

abbrev nD : Nat := 1
abbrev τ : Topo := Topo.v7x

variable {F : FTy → Type} [FloatOps F]

class Facts₀ : Prop where
  reducesTo_S4x2048x2048_S4x2048_d2 : S4x2048x2048.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x2048_0_1_2 : S4x2048x1.BroadcastsInDim S4x2048x2048 (![0, 1, 2] : Fin 3 → Fin S4x2048x2048.rank)
  bcast_S2048_S1x1x2048_2 : S2048.BroadcastsInDim S1x1x2048 (![2] : Fin 1 → Fin S1x1x2048.rank)
  bcast_S1x1x2048_S4x2048x2048_0_1_2 : S1x1x2048.BroadcastsInDim S4x2048x2048 (![0, 1, 2] : Fin 3 → Fin S4x2048x2048.rank)
  bcast_S_S4x2048x2048 : S_.BroadcastsInDim S4x2048x2048 (![] : Fin 0 → Fin S4x2048x2048.rank)
  reducesTo_S8192x2048_S_d0_1 : S8192x2048.ReducesTo [0, 1] S_
  bcast_S_S8192x2048 : S_.BroadcastsInDim S8192x2048 (![] : Fin 0 → Fin S8192x2048.rank)
  bcast_S_S4x2048x8192 : S_.BroadcastsInDim S4x2048x8192 (![] : Fin 0 → Fin S4x2048x8192.rank)
  reducesTo_S4x2048x8192_S4x2048_d2 : S4x2048x8192.ReducesTo [2] S4x2048
  bcast_S4x2048x1_S4x2048x8192_0_1_2 : S4x2048x1.BroadcastsInDim S4x2048x8192 (![0, 1, 2] : Fin 3 → Fin S4x2048x8192.rank)
  bcast_S8192_S1x1x8192_2 : S8192.BroadcastsInDim S1x1x8192 (![2] : Fin 1 → Fin S1x1x8192.rank)
  bcast_S1x1x8192_S4x2048x8192_0_1_2 : S1x1x8192.BroadcastsInDim S4x2048x8192 (![0, 1, 2] : Fin 3 → Fin S4x2048x8192.rank)
  reducesTo_S2048x8192_S_d0_1 : S2048x8192.ReducesTo [0, 1] S_
  bcast_S_S2048x8192 : S_.BroadcastsInDim S2048x8192 (![] : Fin 0 → Fin S2048x8192.rank)
  dot_S4x2048x2048_S8192x2048_S4x2048x8192_2_1_01_0_n_n_wf : DotDims.WF S4x2048x2048 S8192x2048 S4x2048x8192 [2] [1] [0, 1] [0] [] []
  dot_S4x2048x8192_S2048x8192_S4x2048x2048_2_1_01_0_n_n_wf : DotDims.WF S4x2048x8192 S2048x8192 S4x2048x2048 [2] [1] [0, 1] [0] [] []

variable [Facts₀]

def dot_S4x2048x2048_S8192x2048_S4x2048x8192_2_1_01_0_n_n : DotDims S4x2048x2048 S8192x2048 S4x2048x8192 where
  lhsContracting := [2]
  rhsContracting := [1]
  lhsNonContracting := [0, 1]
  rhsNonContracting := [0]
  lhsBatch := []
  rhsBatch := []
  wf := dot_S4x2048x2048_S8192x2048_S4x2048x8192_2_1_01_0_n_n_wf
def dot_S4x2048x8192_S2048x8192_S4x2048x2048_2_1_01_0_n_n : DotDims S4x2048x8192 S2048x8192 S4x2048x2048 where
  lhsContracting := [2]
  rhsContracting := [1]
  lhsNonContracting := [0, 1]
  rhsNonContracting := [0]
  lhsBatch := []
  rhsBatch := []
  wf := dot_S4x2048x8192_S2048x8192_S4x2048x2048_2_1_01_0_n_n_wf

class Facts : Prop extends Facts₀ where

variable [Facts]
-- ==== Proof.KernelRun.lean ====
/-
  The idealized kernel's run with its result named.

  The program is nine stretches of host operations, two kernel regions and a closing reshape. Its frame run ends with
  every unscoped buffer at the contents `W12` — the fold, through the stretches and the two regions' write-backs, of the
  launch memory. Read at the result's buffer as well as at the arguments', that run says: every weakly fair execution
  terminates with the result at `W12`'s contents of the result buffer and the arguments as launched.
-/
import proofs.«151628_j58102317580688_1_alg».proof.Proof.Gen.KernelIdeal.Frame

set_option maxRecDepth 16384

noncomputable section

namespace Cert.KernelIdeal.RunV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents of
    it and the argument arrays as launched. -/
theorem run_named : θ_run defs (onTc (τ := τ) (main (F := F))) ⟨m, fun _ => 0, ρ⟩ (fun r => ∀ c : Dev nD,
      r.2.mem ((c.tc : Thread nD τ).loc main_v29) = W12 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v29 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c)⟩)

end Cert.KernelIdeal.RunV

end
-- ==== Proof.LibMaxReduce.lean ====
/-
  Maximum reductions of an `[a, b]` matrix over one of its two axes, read at an index, at the ideal values.

  On the extended reals a maximum reduction from a start value `s` is the running maximum `foldMax s x` of the
  reduced entries, a fold of `max` over the reduced axis's coordinates whose order does not matter. The vector unit's
  reduction and the host's one-operand reduce with a maximum body both read that way: over the LAST axis at a row `p`
  the entries are `x (p, k)`, over the FIRST axis at a column `c` they are `x (r, c)`.
  Joining the start value in once more changes nothing, since the fold is already above it.
-/
import Idealize.ShloMosaic.Lib.ValueIdx
import Idealize.ShloMosaic.PureOps.Ideal.Laws

noncomputable section

namespace Cert.LibMaxReduce

open Idealize.ShloMosaic Idealize.ShloMosaic.ValueIdx

/-- The maximum of a finite family of extended reals and a start value. -/
def foldMax {n : ℕ} (s : EReal) (x : Fin n → EReal) : EReal := (Finset.univ : Finset (Fin n)).fold max s x

/-- The running maximum is above its start value, so the maximum of the two is the running maximum. -/
theorem max_foldMax {n : ℕ} (s : EReal) (x : Fin n → EReal) : max s (foldMax s x) = foldMax s x :=
  max_eq_right ((Finset.le_fold_max s).mpr (Or.inl le_rfl))

/-- A float maximum reduction over the LAST axis of an `[a, b]` matrix, read at row `p`: the running maximum of that
    row's `b` entries from the accumulator's value. -/
theorem multiReduction_maximumf_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ)
    (p : Fin a) :
    multiReduction .maximumf [1] ⟨1, ![a]⟩ src acc h hφ hacc (ix1 p)
      = foldMax (Ideal.ofBits .f32 acc) (fun k : Fin b => src (ix2 p k)) := by
  refine (Ideal.multiReduction_maximumf_single src acc h hφ hacc (ix1 p)).trans ?_
  unfold foldMax
  refine congrArg (fun f : Fin b → EReal => Finset.fold max (Ideal.ofBits .f32 acc) f Finset.univ) (funext fun k => congrArg src ?_)
  funext ax; apply Fin.ext
  match ax with
  | ⟨0, _⟩ => rfl
  | ⟨1, _⟩ => rfl

/-- A float maximum reduction over the FIRST axis of an `[a, b]` matrix, read at column `c`: the running maximum of
    that column's `a` entries from the accumulator's value. -/
theorem multiReduction_maximumf_firstAxis_apply {a b : ℕ} (src : FVec Ideal ⟨2, ![a, b]⟩ .f32) (acc : BitVec 32)
    (h : (⟨2, ![a, b]⟩ : Shape).Reduces [0] ⟨1, ![b]⟩) (hφ : FKind.Formats .f32) (hacc : acc = FKind.maximumf.neutral .f32 hφ)
    (c : Fin b) :
    multiReduction .maximumf [0] ⟨1, ![b]⟩ src acc h hφ hacc (ix1 c)
      = foldMax (Ideal.ofBits .f32 acc) (fun r : Fin a => src (ix2 r c)) := by
  refine (Ideal.multiReduction_maximumf_single src acc h hφ hacc (ix1 c)).trans ?_
  unfold foldMax
  refine congrArg (fun f : Fin a → EReal => Finset.fold max (Ideal.ofBits .f32 acc) f Finset.univ) (funext fun r => congrArg src ?_)
  funext ax; apply Fin.ext
  match ax with
  | ⟨0, _⟩ => rfl
  | ⟨1, _⟩ => rfl

/-- The host's one-operand reduce with a maximum body over the LAST axis of an `[a, b]` matrix, read at row `p`: the
    running maximum of that row's entries from the initial value's element. -/
theorem hostReduce_maximumf_lastAxis_apply {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := .f32)) x init h' hu (ix1 p)
      = foldMax (init (Shape.Idx.first hu)) (fun k : Fin b => x (ix2 p k)) := by
  refine (Host.reduce_eq_fold_single (FloatOps.maximumf (F := Ideal) (φ := .f32)) x init h' h hu (ix1 p)).trans ?_
  unfold foldMax
  refine congrArg (fun f : Fin b → EReal => Finset.fold max (init (Shape.Idx.first hu)) f Finset.univ) (funext fun k => congrArg x ?_)
  funext ax; apply Fin.ext
  match ax with
  | ⟨0, _⟩ => rfl
  | ⟨1, _⟩ => rfl

/-- The host's one-operand reduce with a maximum body over the FIRST axis of an `[a, b]` matrix, read at column `c`:
    the running maximum of that column's entries from the initial value's element. -/
theorem hostReduce_maximumf_firstAxis_apply {a b : ℕ} {u : Shape} (x : (⟨2, ![a, b]⟩ : Shape).Idx → EReal) (init : u.Idx → EReal)
    (h' : (⟨2, ![a, b]⟩ : Shape).ReducesTo [0] ⟨1, ![b]⟩) (h : (⟨2, ![a, b]⟩ : Shape).Reduces [0] ⟨1, ![b]⟩)
    (hu : 0 < u.numel) (c : Fin b) :
    Host.reduce (FloatOps.maximumf (F := Ideal) (φ := .f32)) x init h' hu (ix1 c)
      = foldMax (init (Shape.Idx.first hu)) (fun r : Fin a => x (ix2 r c)) := by
  refine (Host.reduce_eq_fold_single (FloatOps.maximumf (F := Ideal) (φ := .f32)) x init h' h hu (ix1 c)).trans ?_
  unfold foldMax
  refine congrArg (fun f : Fin a → EReal => Finset.fold max (init (Shape.Idx.first hu)) f Finset.univ) (funext fun r => congrArg x ?_)
  funext ax; apply Fin.ext
  match ax with
  | ⟨0, _⟩ => rfl
  | ⟨1, _⟩ => rfl

end Cert.LibMaxReduce

end
-- ==== Proof.Spec.lean ====
/-
  The two arrangements of one feed-forward block on the extended reals, as scalar functions of rows.

  A row `x` of `K` entries is normalised by its root mean square and a gain `g`, quantised to the 8-bit grid of its own
  largest magnitude, and multiplied into a row of ternary-quantised weights; a first layer of such products passes
  through a squared rectifier and is the row of a second layer.

  The first arrangement multiplies by the reciprocal square root of the mean square and uses the quantised value itself.
  The second divides by the square root and writes the quantised value as `y + (q − y)`, the weights likewise as
  `w + (q − w)`, and takes its clip bounds from integers. Away from the infinities the two agree: for a positive
  real mean square `x / √m = x · (1/√m)` for every extended real `x`, and `y + (q − y) = q` whenever `y` is real.

  Every float literal is kept as its binary word; `n` is the row length as the float it is divided by.
-/
import Idealize.ShloMosaic.PureOps.Ideal
import proofs.«151628_j58102317580688_1_alg».proof.Proof.LibMaxReduce

noncomputable section

namespace Cert.BitFfn

open Idealize.ShloMosaic Cert.LibMaxReduce

/-- The value of an f32 word. -/
abbrev bits (b : BitVec 32) : EReal := Ideal.ofBits .f32 b
/-- The value of a signed 32-bit integer word as a float. -/
abbrev icst (b : BitVec 32) : EReal := ((b.toInt : ℝ) : EReal)
/-- Rounding to the nearest integer, ties to even; the infinities stay. -/
abbrev rne (x : EReal) : EReal := Ideal.liftRound Ideal.roundHalfEven x

/-- The first layer's row length 2048 and the second's 8192, as floats. -/
abbrev N1 : EReal := bits 0x45000000#32
abbrev N2 : EReal := bits 0x46000000#32

variable {K : ℕ}

/-! ## The first arrangement -/

/-- The mean of a row's squares plus the norm's epsilon. -/
def meanSq (n : EReal) (x : Fin K → EReal) : EReal := Ideal.div (∑ k, x k * x k) n + bits 0x358637BD#32

/-- The row times the reciprocal root mean square times the gain. -/
def normed (n : EReal) (x g : Fin K → EReal) (k : Fin K) : EReal := x k * Ideal.rsqrt (meanSq n x) * g k

/-- The 8-bit scale of a row: 127 over its largest magnitude, the magnitude kept above the scale's epsilon. -/
def rowScale (y : Fin K → EReal) : EReal :=
  Ideal.div (bits 0x42FE0000#32) (max (foldMax (bits 0xFF800000#32) (fun k => max (y k) (-(y k)))) (bits 0x3727C5AC#32))

/-- The row on its 8-bit grid: scaled, rounded, clipped to [−128, 127], scaled back. -/
def quant (y : Fin K → EReal) (k : Fin K) : EReal :=
  Ideal.div (min (bits 0x42FE0000#32) (max (bits 0xC3000000#32) (rne (y k * rowScale y)))) (rowScale y)

/-- The mean magnitude of a whole weight array (its 2²⁴ entries summed from zero). -/
def meanAbs {ι : Type} [Fintype ι] (w : ι → EReal) : EReal :=
  Ideal.div (bits 0x00000000#32 + ∑ i, max (w i) (-(w i))) (bits 0x4B800000#32)

/-- The ternary scale of a weight array of mean magnitude `m`. -/
def wScale (m : EReal) : EReal := Ideal.div (bits 0x3F800000#32) (max m (bits 0x3727C5AC#32))

/-- A weight on the ternary grid: scaled, rounded, clipped to [−1, 1], scaled back. -/
def wQuant (m v : EReal) : EReal :=
  Ideal.div (min (bits 0x3F800000#32) (max (bits 0xBF800000#32) (rne (v * wScale m)))) (wScale m)

/-- A dot product of two rows. -/
def lin (y w : Fin K → EReal) : EReal := ∑ k, y k * w k

/-- The squared rectifier. -/
def hidden (t : EReal) : EReal := max t (bits 0x00000000#32) * max t (bits 0x00000000#32)

/-- One output entry: row `x` through the first layer (gain `g1`, weights `w1` of mean magnitude `m1`), the squared
    rectifier, and the second layer's output column `o` (gain `g2`, weights `w2` of mean magnitude `m2`). -/
def ffnK (x g1 : Fin 2048 → EReal) (w1 : Fin 8192 → Fin 2048 → EReal) (m1 : EReal)
    (g2 : Fin 8192 → EReal) (w2 : Fin 2048 → Fin 8192 → EReal) (m2 : EReal) (o : Fin 2048) : EReal :=
  lin (quant (normed N2 (fun j => hidden (lin (quant (normed N1 x g1)) (fun k => wQuant m1 (w1 j k)))) g2))
    (fun k => wQuant m2 (w2 o k))

/-! ## The second arrangement -/

/-- The mean of a row's squares, summed from zero, plus the norm's epsilon. -/
def meanSqR (n : EReal) (x : Fin K → EReal) : EReal :=
  Ideal.div (bits 0x00000000#32 + ∑ k, x k * x k) n + bits 0x358637BD#32

/-- The row over the root mean square, times the gain. -/
def normedR (n : EReal) (x g : Fin K → EReal) (k : Fin K) : EReal := Ideal.div (x k) (Ideal.sqrt (meanSqR n x)) * g k

def rowScaleR (y : Fin K → EReal) : EReal :=
  Ideal.div (bits 0x42FE0000#32) (max (bits 0x3727C5AC#32) (foldMax (bits 0xFF800000#32) (fun k => max (y k) (-(y k)))))

/-- The row plus the difference of its 8-bit grid value and itself. -/
def quantR (y : Fin K → EReal) (k : Fin K) : EReal :=
  y k + (Ideal.div (min (icst 127#32) (max (icst 4294967168#32) (rne (y k * rowScaleR y)))) (rowScaleR y) - y k)

def wScaleR (m : EReal) : EReal := Ideal.div (bits 0x3F800000#32) (max (bits 0x3727C5AC#32) m)

/-- A weight plus the difference of its ternary grid value and itself. -/
def wQuantR (m v : EReal) : EReal :=
  v + (Ideal.div (min (icst 1#32) (max (icst 4294967295#32) (rne (v * wScaleR m)))) (wScaleR m) - v)

def ffnR (x g1 : Fin 2048 → EReal) (w1 : Fin 8192 → Fin 2048 → EReal) (m1 : EReal)
    (g2 : Fin 8192 → EReal) (w2 : Fin 2048 → Fin 8192 → EReal) (m2 : EReal) (o : Fin 2048) : EReal :=
  lin (quantR (normedR N2 (fun j => hidden (lin (quantR (normedR N1 x g1)) (fun k => wQuantR m1 (w1 j k)))) g2))
    (fun k => wQuantR m2 (w2 o k))

end Cert.BitFfn

end
-- ==== Proof.Regions.lean ====
/-
  The two kernel regions' output arrays as whole-array functions of what each region finds on entry.

  Region 0 runs over a 4 × 32 grid (weight tile n, row tile m): at (n, m) it reads rows 256·m … 256·m+255 of the
  activations (all 2048 columns), rows 2048·n … 2048·n+2047 of the quantised first weights and the gain row, and writes
  the 256 × 2048 block (m, n) of the hidden array. Entry (r, j) of that block depends only on row r of the
  activations, the gain, and row j of the weights, so every block is the restriction of ONE function `Hid` of the three
  arrays, and the 128 blocks tile the 8192 × 8192 hidden array.
  Region 1 is the same over a 2 × 64 grid with 128-row activation tiles (all 8192 columns), 1024-row weight tiles and
  128 × 1024 output blocks tiling the 8192 × 2048 output: `Out`.
-/
import proofs.«151628_j58102317580688_1_alg».proof.Proof.Gen.KernelIdeal.Frame
import proofs.«151628_j58102317580688_1_alg».proof.Proof.Spec
import Idealize.ShloMosaic.Lib.Pipeline.Value
import Idealize.ShloMosaic.Lib.ValueIdx

set_option maxRecDepth 16384

noncomputable section

namespace Cert.KernelIdeal.Regions

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.BitFfn

-- the buffer contents a region is entered with
variable (V : (c : Dev nD) → (b : Ref sig .tc) → Buf (Elt Ideal) ((c : Thread nD τ).loc b))

theorem hz : (![0, 0] : Fin 2 → Nat) = fun _ => 0 := funext fun a => by fin_cases a <;> rfl

/-! ## Region 0 -/

/-- The hidden array: entry (r, j) from row r of the activations, the gain row and row j of the quantised weights. -/
def Hid (c : Dev nD) : S8192x8192.Idx → EReal := fun i =>
  hidden (lin (quant (normed N1 (fun k : Fin 2048 => (V c main_v0 : S8192x2048.Idx → EReal) (ix2 (i 0) k))
      (fun k : Fin 2048 => (V c main_v1 : S1x2048.Idx → EReal) (ix2 (0 : Fin 1) k))))
    (fun k : Fin 2048 => (V c main_v14 : S8192x2048.Idx → EReal) (ix2 (i 1) k)))

/-- The printed index maps over the grid: the activation tile follows the output block's row index, the weight tile its
    column index, and every other block coordinate is 0. -/
theorem idx_facts0 : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = 0
    ∧ win0_2.index t (1 : Fin 2) = 0
    ∧ win0_3.index t (0 : Fin 2) ≤ 31 ∧ win0_3.index t (1 : Fin 2) ≤ 3 :=
  (by decide +kernel : ∀ t : Fin grid0.N, _)

/-- Every block of the hidden array is some point's. -/
theorem idx_onto0 : ∀ (q0 : Fin 32) (q1 : Fin 4), ∃ t : Fin cfg0.N, win0_3.index t = ![q0.val, q1.val] :=
  (by decide +kernel : ∀ (q0 : Fin 32) (q1 : Fin 4), ∃ t : Fin grid0.N, win0_3.index t = ![q0.val, q1.val])

/-- An index of the hidden array is in point `t`'s block iff each coordinate is in the block's range on its axis. -/
theorem mem_blk0 (t : Fin cfg0.N) (i : S8192x8192.Idx) :
    i ∈ ((cfg0.win 3).blk t).view.set ↔ ∀ a : Fin 2, win0_3.index t a * S256x2048.size a ≤ (i a).val ∧ (i a).val < win0_3.index t a * S256x2048.size a + S256x2048.size a := by
  show i ∈ ((View.whole main_v27).slice (win0_3.rect t)).set ↔ _
  rw [View.set_slice_whole, Rect.mem_set_unit]
  exact Iff.rfl

/-- The 128 blocks tile the hidden array: (r, j) is in block (r / 256, j / 2048). -/
theorem cover0 (i : S8192x8192.Idx) : ∃ t : Fin cfg0.N, (cfg0.win 3).flush t = true ∧ i ∈ ((cfg0.win 3).blk t).view.set := by
  have hi0 : (i 0).val < 8192 := (i 0).isLt
  have hi1 : (i 1).val < 8192 := (i 1).isLt
  obtain ⟨t, ht⟩ := idx_onto0 ⟨(i 0).val / 256, by omega⟩ ⟨(i 1).val / 2048, by omega⟩
  have q0 : win0_3.index t (0 : Fin 2) = (i 0).val / 256 := congrFun ht 0
  have q1 : win0_3.index t (1 : Fin 2) = (i 1).val / 2048 := congrFun ht 1
  refine ⟨t, flush0_3 t, ?_⟩
  rw [mem_blk0]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 2048 ≤ (i 1).val ∧ (i 1).val < win0_3.index t (1 : Fin 2) * 2048 + 2048; omega

section
variable (hpay0 : ∀ (v0 : Vec Ideal S256x2048 .f32) (v12 : Vec Ideal S1x2048 .f32) (v33 : Vec Ideal S2048x2048 .bf16) (p : Fin 256) (q : Fin 2048),
  k0_pay1 (F := Ideal) v0 v12 v33 (ix2 p q)
    = hidden (lin (quant (normed N1 (fun k => v0 (ix2 p k)) (fun k => v12 (ix2 (0 : Fin 1) k)))) (fun k => v33 (ix2 q k))))
include hpay0

/-- What point `t` writes back is block `t` of `Hid`: entry (p, q) of the block reads row p of the activation tile, the
    gain row and row q of the weight tile, which sit in the arrays at the rows the output block's position names. -/
theorem flushed0_eq (c : Dev nD) (t : Fin cfg0.N) :
    (dat0 V c).flushed 3 t = ((cfg0.win 3).blk t).view.read (Elt Ideal) (Hid V c) := by
  show (cfg0.win 3).cut (grid0.coords t) ((dat0 V c).after 3 t) = _
  rw [after0_3]
  unfold out0_3
  rw [View.canon_unit_zero hz]
  simp only [View.ld_unit_zero (S := S256x2048) hz, View.ld_unit_zero (S := S1x2048) hz, View.ld_unit_zero (S := S2048x2048) hz]
  funext j
  obtain ⟨p, q, rfl⟩ : ∃ (p : Fin 256) (q : Fin 2048), j = ix2 p q := ⟨j 0, j 1, eq_ix2 j⟩
  refine (hpay0 _ _ _ p q).trans ?_
  obtain ⟨e0, e1, e2, e3, e4, e5, e6, e7⟩ := idx_facts0 t
  show _ = Hid V c (((cfg0.win 3).blk t).view.emb (ix2 p q))
  unfold Hid
  have r0 : ∀ k : Fin 2048, iblk0 V c 0 t (ix2 p k) = (V c main_v0 : S8192x2048.Idx → EReal) (ix2 ((((cfg0.win 3).blk t).view.emb (ix2 p q)) 0) k) := by
    intro k
    show (V c main_v0 : S8192x2048.Idx → EReal) (((cfg0.win 0).blk t).view.emb (ix2 p k)) = _
    refine congrArg (V c main_v0 : S8192x2048.Idx → EReal) ?_
    funext a; apply Fin.ext
    match a with
    | ⟨0, _⟩ => show win0_0.index t (0 : Fin 2) * 256 + 1 * p.val = win0_3.index t (0 : Fin 2) * 256 + 1 * p.val; omega
    | ⟨1, _⟩ => show win0_0.index t (1 : Fin 2) * 2048 + 1 * k.val = k.val; omega
  have r1 : ∀ k : Fin 2048, iblk0 V c 1 t (ix2 q k) = (V c main_v14 : S8192x2048.Idx → EReal) (ix2 ((((cfg0.win 3).blk t).view.emb (ix2 p q)) 1) k) := by
    intro k
    show (V c main_v14 : S8192x2048.Idx → EReal) (((cfg0.win 1).blk t).view.emb (ix2 q k)) = _
    refine congrArg (V c main_v14 : S8192x2048.Idx → EReal) ?_
    funext a; apply Fin.ext
    match a with
    | ⟨0, _⟩ => show win0_1.index t (0 : Fin 2) * 2048 + 1 * q.val = win0_3.index t (1 : Fin 2) * 2048 + 1 * q.val; omega
    | ⟨1, _⟩ => show win0_1.index t (1 : Fin 2) * 2048 + 1 * k.val = k.val; omega
  have r2 : ∀ k : Fin 2048, iblk0 V c 2 t (ix2 (0 : Fin 1) k) = (V c main_v1 : S1x2048.Idx → EReal) (ix2 (0 : Fin 1) k) := by
    intro k
    show (V c main_v1 : S1x2048.Idx → EReal) (((cfg0.win 2).blk t).view.emb (ix2 (0 : Fin 1) k)) = _
    refine congrArg (V c main_v1 : S1x2048.Idx → EReal) ?_
    funext a; apply Fin.ext
    match a with
    | ⟨0, _⟩ => show win0_2.index t (0 : Fin 2) * 1 + 1 * 0 = 0; omega
    | ⟨1, _⟩ => show win0_2.index t (1 : Fin 2) * 2048 + 1 * k.val = k.val; omega
  simp only [r0, r1, r2]

/-- After region 0 the hidden array holds `Hid` of the three arrays the region found. -/
theorem final0 (c : Dev nD) : (dat0 V c).arrAt 3 cfg0.N = Hid V c :=
  (dat0 V c).arrAt_eq_of_cover 3 (Hid V c) (fun t _ => flushed0_eq V hpay0 c t) cover0
end

/-! ## Region 1 -/

/-- The output array: entry (r, o) from row r of the hidden array, the second gain row and row o of the quantised second
    weights. -/
def Out (c : Dev nD) : S8192x2048.Idx → EReal := fun i =>
  lin (quant (normed N2 (fun k : Fin 8192 => (V c main_v27 : S8192x8192.Idx → EReal) (ix2 (i 0) k))
      (fun k : Fin 8192 => (V c main_v2 : S1x8192.Idx → EReal) (ix2 (0 : Fin 1) k))))
    (fun k : Fin 8192 => (V c main_v26 : S2048x8192.Idx → EReal) (ix2 (i 1) k))

theorem idx_facts1 : ∀ t : Fin cfg1.N, win1_0.index t (0 : Fin 2) = win1_3.index t (0 : Fin 2)
    ∧ win1_0.index t (1 : Fin 2) = 0
    ∧ win1_1.index t (0 : Fin 2) = win1_3.index t (1 : Fin 2)
    ∧ win1_1.index t (1 : Fin 2) = 0
    ∧ win1_2.index t (0 : Fin 2) = 0
    ∧ win1_2.index t (1 : Fin 2) = 0
    ∧ win1_3.index t (0 : Fin 2) ≤ 63 ∧ win1_3.index t (1 : Fin 2) ≤ 1 :=
  (by decide +kernel : ∀ t : Fin grid1.N, _)

theorem idx_onto1 : ∀ (q0 : Fin 64) (q1 : Fin 2), ∃ t : Fin cfg1.N, win1_3.index t = ![q0.val, q1.val] :=
  (by decide +kernel : ∀ (q0 : Fin 64) (q1 : Fin 2), ∃ t : Fin grid1.N, win1_3.index t = ![q0.val, q1.val])

/-- An index of the output array is in point `t`'s block iff each coordinate is in the block's range on its axis. -/
theorem mem_blk1 (t : Fin cfg1.N) (i : S8192x2048.Idx) :
    i ∈ ((cfg1.win 3).blk t).view.set ↔ ∀ a : Fin 2, win1_3.index t a * S128x1024.size a ≤ (i a).val ∧ (i a).val < win1_3.index t a * S128x1024.size a + S128x1024.size a := by
  show i ∈ ((View.whole main_v28).slice (win1_3.rect t)).set ↔ _
  rw [View.set_slice_whole, Rect.mem_set_unit]
  exact Iff.rfl

/-- The 128 blocks tile the output array: (r, o) is in block (r / 128, o / 1024). -/
theorem cover1 (i : S8192x2048.Idx) : ∃ t : Fin cfg1.N, (cfg1.win 3).flush t = true ∧ i ∈ ((cfg1.win 3).blk t).view.set := by
  have hi0 : (i 0).val < 8192 := (i 0).isLt
  have hi1 : (i 1).val < 2048 := (i 1).isLt
  obtain ⟨t, ht⟩ := idx_onto1 ⟨(i 0).val / 128, by omega⟩ ⟨(i 1).val / 1024, by omega⟩
  have q0 : win1_3.index t (0 : Fin 2) = (i 0).val / 128 := congrFun ht 0
  have q1 : win1_3.index t (1 : Fin 2) = (i 1).val / 1024 := congrFun ht 1
  refine ⟨t, flush1_3 t, ?_⟩
  rw [mem_blk1]
  intro a
  match a with
  | ⟨0, _⟩ => show win1_3.index t (0 : Fin 2) * 128 ≤ (i 0).val ∧ (i 0).val < win1_3.index t (0 : Fin 2) * 128 + 128; omega
  | ⟨1, _⟩ => show win1_3.index t (1 : Fin 2) * 1024 ≤ (i 1).val ∧ (i 1).val < win1_3.index t (1 : Fin 2) * 1024 + 1024; omega

section
variable (hpay1 : ∀ (v0 : Vec Ideal S128x8192 .f32) (v12 : Vec Ideal S1x8192 .f32) (v33 : Vec Ideal S1024x8192 .bf16) (p : Fin 128) (q : Fin 1024),
  k1_pay1 (F := Ideal) v0 v12 v33 (ix2 p q)
    = lin (quant (normed N2 (fun k => v0 (ix2 p k)) (fun k => v12 (ix2 (0 : Fin 1) k)))) (fun k => v33 (ix2 q k)))
include hpay1

/-- What point `t` writes back is block `t` of `Out`: entry (p, q) of the block reads row p of the activation tile, the
    gain row and row q of the weight tile, which sit in the arrays at the rows the output block's position names. -/
theorem flushed1_eq (c : Dev nD) (t : Fin cfg1.N) :
    (dat1 V c).flushed 3 t = ((cfg1.win 3).blk t).view.read (Elt Ideal) (Out V c) := by
  show (cfg1.win 3).cut (grid1.coords t) ((dat1 V c).after 3 t) = _
  rw [after1_3]
  unfold out1_3
  rw [View.canon_unit_zero hz]
  simp only [View.ld_unit_zero (S := S128x8192) hz, View.ld_unit_zero (S := S1x8192) hz, View.ld_unit_zero (S := S1024x8192) hz]
  funext j
  obtain ⟨p, q, rfl⟩ : ∃ (p : Fin 128) (q : Fin 1024), j = ix2 p q := ⟨j 0, j 1, eq_ix2 j⟩
  refine (hpay1 _ _ _ p q).trans ?_
  obtain ⟨e0, e1, e2, e3, e4, e5, e6, e7⟩ := idx_facts1 t
  show _ = Out V c (((cfg1.win 3).blk t).view.emb (ix2 p q))
  unfold Out
  have r0 : ∀ k : Fin 8192, iblk1 V c 0 t (ix2 p k) = (V c main_v27 : S8192x8192.Idx → EReal) (ix2 ((((cfg1.win 3).blk t).view.emb (ix2 p q)) 0) k) := by
    intro k
    show (V c main_v27 : S8192x8192.Idx → EReal) (((cfg1.win 0).blk t).view.emb (ix2 p k)) = _
    refine congrArg (V c main_v27 : S8192x8192.Idx → EReal) ?_
    funext a; apply Fin.ext
    match a with
    | ⟨0, _⟩ => show win1_0.index t (0 : Fin 2) * 128 + 1 * p.val = win1_3.index t (0 : Fin 2) * 128 + 1 * p.val; omega
    | ⟨1, _⟩ => show win1_0.index t (1 : Fin 2) * 8192 + 1 * k.val = k.val; omega
  have r1 : ∀ k : Fin 8192, iblk1 V c 1 t (ix2 q k) = (V c main_v26 : S2048x8192.Idx → EReal) (ix2 ((((cfg1.win 3).blk t).view.emb (ix2 p q)) 1) k) := by
    intro k
    show (V c main_v26 : S2048x8192.Idx → EReal) (((cfg1.win 1).blk t).view.emb (ix2 q k)) = _
    refine congrArg (V c main_v26 : S2048x8192.Idx → EReal) ?_
    funext a; apply Fin.ext
    match a with
    | ⟨0, _⟩ => show win1_1.index t (0 : Fin 2) * 1024 + 1 * q.val = win1_3.index t (1 : Fin 2) * 1024 + 1 * q.val; omega
    | ⟨1, _⟩ => show win1_1.index t (1 : Fin 2) * 8192 + 1 * k.val = k.val; omega
  have r2 : ∀ k : Fin 8192, iblk1 V c 2 t (ix2 (0 : Fin 1) k) = (V c main_v2 : S1x8192.Idx → EReal) (ix2 (0 : Fin 1) k) := by
    intro k
    show (V c main_v2 : S1x8192.Idx → EReal) (((cfg1.win 2).blk t).view.emb (ix2 (0 : Fin 1) k)) = _
    refine congrArg (V c main_v2 : S1x8192.Idx → EReal) ?_
    funext a; apply Fin.ext
    match a with
    | ⟨0, _⟩ => show win1_2.index t (0 : Fin 2) * 1 + 1 * 0 = 0; omega
    | ⟨1, _⟩ => show win1_2.index t (1 : Fin 2) * 8192 + 1 * k.val = k.val; omega
  simp only [r0, r1, r2]

/-- After region 1 the output array holds `Out` of the three arrays the region found. -/
theorem final1 (c : Dev nD) : (dat1 V c).arrAt 3 cfg1.N = Out V c :=
  (dat1 V c).arrAt_eq_of_cover 3 (Out V c) (fun t _ => flushed1_eq V hpay1 c t) cover1
end

end Cert.KernelIdeal.Regions

end
-- ==== Proof.LibRank3.lean ====
/-
  Rank-3 arrays read at coordinates: the layout operations a kernel uses to form an outer combination of two
  matrices and to fold the two leading axes into one.

  An [a, b, c] array and the [a·b, c] matrix with the same row-major order hold the same numbers: entry (p, q, e) of
  the one is entry (p·b + q, e) of the other (`flat` is that row). A matrix [a, c] viewed as [a, 1, c], a matrix
  [b, c] viewed as [1, b, c] and a vector [c] viewed as [1, 1, c] keep their entries; spread over [a, b, c] they
  repeat them along the unit axes. A sum over the last axis of an [a, b, c] array, at (p, q), is the sum over e of
  the entries (p, q, e).
-/
import Idealize.ShloMosaic.Lib.ValueLayout
import Idealize.ShloMosaic.Lib.Pipeline.Value
import Idealize.ShloMosaic.Lib.ValueIdx
import Idealize.ShloMosaic.PureOps.Ideal.Laws

noncomputable section

namespace Cert.LibRank3

open Idealize.ShloMosaic Idealize.ShloMosaic.ValueIdx

variable {α : Type}

/-- The row of the [n, c] matrix, n = a·b, that holds the entries (p, q, ·) of an [a, b, c] array. -/
def flat {a b : ℕ} (n : ℕ) (hn : n = a * b) (p : Fin a) (q : Fin b) : Fin n :=
  ⟨p.val * b + q.val, by
    subst hn
    calc p.val * b + q.val < p.val * b + b := Nat.add_lt_add_left q.isLt _
      _ = (p.val + 1) * b := (Nat.succ_mul _ _).symm
      _ ≤ a * b := Nat.mul_le_mul_right b p.isLt⟩

theorem flat_val {a b : ℕ} (n : ℕ) (hn : n = a * b) (p : Fin a) (q : Fin b) : (flat n hn p q).val = p.val * b + q.val := rfl

/-- An [a, b, c] array folded to [n, c], n = a·b: row p·b + q holds the entries (p, q, ·). -/
theorem cast_abc_nc {a b c : ℕ} (n : ℕ) (hn : n = a * b) (x : (⟨3, ![a, b, c]⟩ : Shape).Idx → α)
    (h : (⟨3, ![a, b, c]⟩ : Shape).ShapeCasts ⟨2, ![n, c]⟩) (p : Fin a) (q : Fin b) (e : Fin c) :
    shapeCast ⟨2, ![n, c]⟩ x h (ix2 (flat n hn p q) e) = x (ix3 p q e) :=
  shapeCast_apply x h _ _ (by
    rw [Shape.rowMajor_val_three, Shape.rowMajor_val_two]
    rfl)

/-- An [n, c] matrix, n = a·b, unfolded to [a, b, c]: entry (p, q, e) is entry (p·b + q, e). -/
theorem cast_nc_abc {a b c : ℕ} (n : ℕ) (hn : n = a * b) (x : (⟨2, ![n, c]⟩ : Shape).Idx → α)
    (h : (⟨2, ![n, c]⟩ : Shape).ShapeCasts ⟨3, ![a, b, c]⟩) (p : Fin a) (q : Fin b) (e : Fin c) :
    shapeCast ⟨3, ![a, b, c]⟩ x h (ix3 p q e) = x (ix2 (flat n hn p q) e) :=
  shapeCast_apply x h _ _ (by
    rw [Shape.rowMajor_val_three, Shape.rowMajor_val_two]
    rfl)

/-- A matrix [a, c] viewed as [a, 1, c] keeps its entries. -/
theorem cast_ac_a1c {a c : ℕ} (x : (⟨2, ![a, c]⟩ : Shape).Idx → α)
    (h : (⟨2, ![a, c]⟩ : Shape).ShapeCasts ⟨3, ![a, 1, c]⟩) (p : Fin a) (u : Fin 1) (e : Fin c) :
    shapeCast ⟨3, ![a, 1, c]⟩ x h (ix3 p u e) = x (ix2 p e) :=
  shapeCast_apply x h _ _ (by
    rw [Shape.rowMajor_val_three, Shape.rowMajor_val_two]
    show p.val * c + e.val = (p.val * 1 + u.val) * c + e.val
    have hu : u.val = 0 := by have := u.isLt; omega
    rw [hu, Nat.mul_one, Nat.add_zero])

/-- A vector [c] viewed as [1, 1, c] keeps its entries. -/
theorem cast_c_11c {c : ℕ} (x : (⟨1, ![c]⟩ : Shape).Idx → α)
    (h : (⟨1, ![c]⟩ : Shape).ShapeCasts ⟨3, ![1, 1, c]⟩) (u u' : Fin 1) (e : Fin c) :
    shapeCast ⟨3, ![1, 1, c]⟩ x h (ix3 u u' e) = x (ix1 e) :=
  shapeCast_apply x h _ _ (by
    rw [Shape.rowMajor_val_three, Shape.rowMajor_val_one]
    show e.val = (u.val * 1 + u'.val) * c + e.val
    have hu : u.val = 0 := by have := u.isLt; omega
    have hu' : u'.val = 0 := by have := u'.isLt; omega
    simp only [hu, hu', Nat.zero_mul, Nat.zero_add, Nat.mul_one, Nat.add_zero])

/-- [a, 1, c] spread over [a, b, c]: the middle coordinate is forgotten. -/
theorem bcast_a1c_abc {a b c : ℕ} (v : (⟨3, ![a, 1, c]⟩ : Shape).Idx → α)
    (h : (⟨3, ![a, 1, c]⟩ : Shape).Broadcasts ⟨3, ![a, b, c]⟩) (p : Fin a) (q : Fin b) (e : Fin c) (u : Fin 1) :
    broadcastTo ⟨3, ![a, b, c]⟩ v h (ix3 p q e) = v (ix3 p u e) := by
  refine broadcastTo_apply v h (ix3 p q e) (ix3 p u e) fun ax => ?_
  match ax with
  | ⟨0, _⟩ =>
    show p.val = if a = 1 then 0 else p.val
    split
    · have := p.isLt; omega
    · rfl
  | ⟨1, _⟩ =>
    show u.val = if (1 : ℕ) = 1 then 0 else q.val
    rw [if_pos rfl]; have := u.isLt; omega
  | ⟨2, _⟩ =>
    show e.val = if c = 1 then 0 else e.val
    split
    · have := e.isLt; omega
    · rfl

/-- [1, b, c] spread over [a, b, c]: the leading coordinate is forgotten. -/
theorem bcast_1bc_abc {a b c : ℕ} (v : (⟨3, ![1, b, c]⟩ : Shape).Idx → α)
    (h : (⟨3, ![1, b, c]⟩ : Shape).Broadcasts ⟨3, ![a, b, c]⟩) (p : Fin a) (q : Fin b) (e : Fin c) (u : Fin 1) :
    broadcastTo ⟨3, ![a, b, c]⟩ v h (ix3 p q e) = v (ix3 u q e) := by
  refine broadcastTo_apply v h (ix3 p q e) (ix3 u q e) fun ax => ?_
  match ax with
  | ⟨0, _⟩ =>
    show u.val = if (1 : ℕ) = 1 then 0 else p.val
    rw [if_pos rfl]; have := u.isLt; omega
  | ⟨1, _⟩ =>
    show q.val = if b = 1 then 0 else q.val
    split
    · have := q.isLt; omega
    · rfl
  | ⟨2, _⟩ =>
    show e.val = if c = 1 then 0 else e.val
    split
    · have := e.isLt; omega
    · rfl

/-- [1, 1, c] spread over [a, b, c]: both leading coordinates are forgotten. -/
theorem bcast_11c_abc {a b c : ℕ} (v : (⟨3, ![1, 1, c]⟩ : Shape).Idx → α)
    (h : (⟨3, ![1, 1, c]⟩ : Shape).Broadcasts ⟨3, ![a, b, c]⟩) (p : Fin a) (q : Fin b) (e : Fin c) (u u' : Fin 1) :
    broadcastTo ⟨3, ![a, b, c]⟩ v h (ix3 p q e) = v (ix3 u u' e) := by
  refine broadcastTo_apply v h (ix3 p q e) (ix3 u u' e) fun ax => ?_
  match ax with
  | ⟨0, _⟩ =>
    show u.val = if (1 : ℕ) = 1 then 0 else p.val
    rw [if_pos rfl]; have := u.isLt; omega
  | ⟨1, _⟩ =>
    show u'.val = if (1 : ℕ) = 1 then 0 else q.val
    rw [if_pos rfl]; have := u'.isLt; omega
  | ⟨2, _⟩ =>
    show e.val = if c = 1 then 0 else e.val
    split
    · have := e.isLt; omega
    · rfl

/-- The source index of a last-axis reduction of an [a, b, c] array over the result index (p, q), at coordinate k. -/
theorem lift_last {a b c : ℕ} (h : (⟨3, ![a, b, c]⟩ : Shape).Reduces [2] ⟨2, ![a, b]⟩) (p : Fin a) (q : Fin b) (k : Fin c) :
    h.lift (ix2 p q) k = ix3 p q k :=
  funext fun d => Fin.ext (by
    match d with
    | ⟨0, _⟩ => rfl
    | ⟨1, _⟩ => rfl
    | ⟨2, _⟩ => rfl)

/-- At the ideal values a float sum over the last axis of an [a, b, c] array, at (p, q): Σ_k x(p, q, k). -/
theorem lane_sum {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  exact Finset.sum_congr rfl fun k _ => congrArg src (lift_last h p q k)

end Cert.LibRank3

end
-- ==== Proof.KernelHost.lean ====
/-
  The idealized kernel's host operations, read at an index.

  Before its first region the program reshapes the input [4, 2048, 2048] to [8192, 2048] and the two gains [a] to
  [1, a], and puts each weight array on its ternary grid: the array's mean magnitude (its entries' magnitudes summed
  from zero, over 2²⁴) held above an epsilon, one over that as the scale, the weight times the scale rounded to the
  nearest integer, clipped to [−1, 1], divided by the scale again. After its last region it reshapes the result
  [8192, 2048] back to [4, 2048, 2048]. Each buffer these operations leave is, at an index, the launch contents of
  an argument at the matching index, or the weight there on the ternary grid of the whole array.

  The buffer contents at a boundary are a fold of the operations' results from the launch contents; at one buffer the
  fold computes to the composed operations, and the moves of contents between a called function's value types and its
  buffers' types are identities, the types being equal.
-/
import proofs.«151628_j58102317580688_1_alg».proof.Proof.Gen.KernelIdeal.Frame
import Idealize.ShloMosaic.PureOps.Ideal
import Idealize.ShloMosaic.PureOps.Ideal.Laws
import Idealize.ShloMosaic.Lib.Pipeline.Value
import Idealize.ShloMosaic.Lib.ValueIdx
import proofs.«151628_j58102317580688_1_alg».proof.Proof.Spec
import proofs.«151628_j58102317580688_1_alg».proof.Proof.LibRank3

set_option maxRecDepth 16384

noncomputable section

namespace Cert.KernelIdeal.HostV

open Idealize.ShloMosaic Idealize.ShloMosaic.TcCoe Idealize.ShloMosaic.ValueIdx
open Idealize.SL Idealize.SL.Sem
open Cert.KernelIdeal Cert.KernelIdeal.Gen

/-! ## The operations on any shape -/

/-- A scalar spread over a shape, read anywhere, is the scalar. -/
theorem bcast_scalar {s : Shape} (hb : (⟨0, ![]⟩ : Shape).BroadcastsInDim s ![]) (z : (⟨0, ![]⟩ : Shape).Idx → EReal)
    (i : s.Idx) : broadcastInDim s ![] hb z i = z ix0 :=
  broadcastInDim_apply ![] hb z i ix0 (fun a => a.elim0)

/-- The ternary scale of an array as the host's operations compute it: one over the mean magnitude held above the
    epsilon, a scalar. -/
def hostScale {s : Shape} {axes : List (Fin s.rank)} (hr : s.ReducesTo axes ⟨0, ![]⟩)
    (hu : 0 < (⟨0, ![]⟩ : Shape).numel) (A : FVec Ideal s .f32) : FVec Ideal ⟨0, ![]⟩ .f32 :=
  Host.divf (constant (F := Ideal) ⟨0, ![]⟩ .f32 0x3F800000#32)
    (maximumf (Host.divf (Host.reduceAdd (Host.absf A) (constant (F := Ideal) ⟨0, ![]⟩ .f32 0x00000000#32) hr hu)
        (constant (F := Ideal) ⟨0, ![]⟩ .f32 0x4B800000#32))
      (constant (F := Ideal) ⟨0, ![]⟩ .f32 0x3727C5AC#32))

/-- The array on its ternary grid as the host's operations compute it. -/
def hostQuant {s : Shape} {axes : List (Fin s.rank)} (hb : (⟨0, ![]⟩ : Shape).BroadcastsInDim s ![])
    (hr : s.ReducesTo axes ⟨0, ![]⟩) (hu : 0 < (⟨0, ![]⟩ : Shape).numel) (hlt : FTy.bf16.bits < FTy.f32.bits)
    (A : FVec Ideal s .f32) : FVec Ideal s .bf16 :=
  truncf (F := Ideal) .bf16
    (Host.divf
      (minimumf (broadcastInDim s ![] hb (constant (F := Ideal) ⟨0, ![]⟩ .f32 0x3F800000#32))
        (maximumf (broadcastInDim s ![] hb (constant (F := Ideal) ⟨0, ![]⟩ .f32 0xBF800000#32))
          (Host.roundeven (mulf A (broadcastInDim s ![] hb (hostScale hr hu A))))))
      (broadcastInDim s ![] hb (hostScale hr hu A))) hlt

/-- The host's scale is the ternary scale of the array's mean magnitude. -/
theorem hostScale_apply {s : Shape} {axes : List (Fin s.rank)} (hr : s.ReducesTo axes ⟨0, ![]⟩)
    (hu : 0 < (⟨0, ![]⟩ : Shape).numel) (A : FVec Ideal s .f32) (i0 : (⟨0, ![]⟩ : Shape).Idx) :
    hostScale hr hu A i0 = Cert.BitFfn.wScale (Cert.BitFfn.meanAbs A) := by
  have hsum : Host.reduceAdd (Host.absf A) (constant (F := Ideal) ⟨0, ![]⟩ .f32 0x00000000#32) hr hu i0
      = Cert.BitFfn.bits 0x00000000#32 + ∑ i : s.Idx, max (A i) (-(A i)) := by
    simp only [Host.reduceAdd, Ideal.hostReduceAdd_def]
    exact Ideal.hostReduceAdd_total hr (fun b => b.elim0) _ _ i0
  show Ideal.div (Cert.BitFfn.bits 0x3F800000#32)
      (max (Ideal.div (Host.reduceAdd (Host.absf A) (constant (F := Ideal) ⟨0, ![]⟩ .f32 0x00000000#32) hr hu i0)
        (Cert.BitFfn.bits 0x4B800000#32)) (Cert.BitFfn.bits 0x3727C5AC#32)) = _
  rw [hsum]
  rfl

/-- The host's quantisation at an index is that entry on the ternary grid of the array's mean magnitude. -/
theorem hostQuant_apply {s : Shape} {axes : List (Fin s.rank)} (hb : (⟨0, ![]⟩ : Shape).BroadcastsInDim s ![])
    (hr : s.ReducesTo axes ⟨0, ![]⟩) (hu : 0 < (⟨0, ![]⟩ : Shape).numel) (hlt : FTy.bf16.bits < FTy.f32.bits)
    (A : FVec Ideal s .f32) (i : s.Idx) :
    hostQuant hb hr hu hlt A i = Cert.BitFfn.wQuant (Cert.BitFfn.meanAbs A) (A i) := by
  show Ideal.div (min (broadcastInDim s ![] hb (constant (F := Ideal) ⟨0, ![]⟩ .f32 0x3F800000#32) i)
        (max (broadcastInDim s ![] hb (constant (F := Ideal) ⟨0, ![]⟩ .f32 0xBF800000#32) i)
          (Ideal.liftRound Ideal.roundHalfEven (A i * broadcastInDim s ![] hb (hostScale hr hu A) i))))
      (broadcastInDim s ![] hb (hostScale hr hu A) i) = _
  rw [bcast_scalar hb (hostScale hr hu A) i, bcast_scalar hb _ i, bcast_scalar hb _ i, hostScale_apply hr hu A ix0]
  rfl

/-- A vector [a] viewed as [1, a] keeps its entries. -/
theorem cast_a_1a {α : Type} {a : ℕ} (x : (⟨1, ![a]⟩ : Shape).Idx → α)
    (h : (⟨1, ![a]⟩ : Shape).ShapeCasts ⟨2, ![1, a]⟩) (u : Fin 1) (e : Fin a) :
    shapeCast ⟨2, ![1, a]⟩ x h (ix2 u e) = x (ix1 e) :=
  shapeCast_apply x h _ _ (by
    rw [Shape.rowMajor_val_one, Shape.rowMajor_val_two]
    show e.val = u.val * a + e.val
    have hu : u.val = 0 := by have := u.isLt; omega
    rw [hu, Nat.zero_mul, Nat.zero_add])

/-! ## The buffers at the first region's entry and at the return -/

variable (m : (ℓ : Loc nD τ sig) → Buf (Elt Ideal) ℓ) (ρ : Dev nD → PrngReg) (c : Dev nD)

set_option maxHeartbeats 1000000 in
/-- The reshaped input is the launched input, folded. -/
theorem v0_eq : (W9 m ρ c (Proc.devRef .tc main_v0) : S8192x2048.Idx → EReal)
    = shapeCast S8192x2048 (m ((c.tc : Thread nD τ).loc main_arg0) : S4x2048x2048.Idx → EReal)
        shapeCasts_S4x2048x2048_S8192x2048 := by
  after_results
  rfl

theorem v0_apply (b : Fin 4) (s : Fin 2048) (k : Fin 2048) :
    (W9 m ρ c (Proc.devRef .tc main_v0) : S8192x2048.Idx → EReal) (ix2 ⟨b.val * 2048 + s.val, by omega⟩ k)
      = (m ((c.tc : Thread nD τ).loc main_arg0) : S4x2048x2048.Idx → EReal) (ix3 b s k) :=
  (congrFun (v0_eq m ρ c) _).trans
    (Cert.LibRank3.cast_abc_nc 8192 rfl (m ((c.tc : Thread nD τ).loc main_arg0) : S4x2048x2048.Idx → EReal)
      shapeCasts_S4x2048x2048_S8192x2048 b s k)

set_option maxHeartbeats 1000000 in
theorem v1_eq : (W9 m ρ c (Proc.devRef .tc main_v1) : S1x2048.Idx → EReal)
    = shapeCast S1x2048 (m ((c.tc : Thread nD τ).loc main_arg2) : S2048.Idx → EReal) shapeCasts_S2048_S1x2048 := by
  after_results
  rfl

theorem v1_apply (k : Fin 2048) :
    (W9 m ρ c (Proc.devRef .tc main_v1) : S1x2048.Idx → EReal) (ix2 (0 : Fin 1) k)
      = (m ((c.tc : Thread nD τ).loc main_arg2) : S2048.Idx → EReal) (ix1 k) :=
  (congrFun (v1_eq m ρ c) _).trans (cast_a_1a _ shapeCasts_S2048_S1x2048 0 k)

set_option maxHeartbeats 1000000 in
theorem v2_eq : (W9 m ρ c (Proc.devRef .tc main_v2) : S1x8192.Idx → EReal)
    = shapeCast S1x8192 (m ((c.tc : Thread nD τ).loc main_arg4) : S8192.Idx → EReal) shapeCasts_S8192_S1x8192 := by
  after_results
  rfl

theorem v2_apply (k : Fin 8192) :
    (W9 m ρ c (Proc.devRef .tc main_v2) : S1x8192.Idx → EReal) (ix2 (0 : Fin 1) k)
      = (m ((c.tc : Thread nD τ).loc main_arg4) : S8192.Idx → EReal) (ix1 k) :=
  (congrFun (v2_eq m ρ c) _).trans (cast_a_1a _ shapeCasts_S8192_S1x8192 0 k)

set_option maxHeartbeats 2000000 in
/-- The first layer's weights as the region finds them: the launched weights on their ternary grid. -/
theorem v14_eq : (W9 m ρ c (Proc.devRef .tc main_v14) : (⟨S8192x2048, .bf16⟩ : BufTy).Contents (Elt Ideal))
    = hostQuant bcast_S_S8192x2048 reducesTo_S8192x2048_S_d0_1 h_S_ bitsLt_bf16_f32
        (m ((c.tc : Thread nD τ).loc main_arg1) : S8192x2048.Idx → EReal) := by
  after_results
  rfl

theorem v14_apply (j : Fin 8192) (k : Fin 2048) :
    (W9 m ρ c (Proc.devRef .tc main_v14) : S8192x2048.Idx → EReal) (ix2 j k)
      = Cert.BitFfn.wQuant (Cert.BitFfn.meanAbs (m ((c.tc : Thread nD τ).loc main_arg1) : S8192x2048.Idx → EReal))
          ((m ((c.tc : Thread nD τ).loc main_arg1) : S8192x2048.Idx → EReal) (ix2 j k)) :=
  (congrFun (v14_eq m ρ c) _).trans (hostQuant_apply _ _ _ _ _ _)

set_option maxHeartbeats 2000000 in
/-- The second layer's weights likewise. -/
theorem v26_eq : (W9 m ρ c (Proc.devRef .tc main_v26) : (⟨S2048x8192, .bf16⟩ : BufTy).Contents (Elt Ideal))
    = hostQuant bcast_S_S2048x8192 reducesTo_S2048x8192_S_d0_1 h_S_ bitsLt_bf16_f32
        (m ((c.tc : Thread nD τ).loc main_arg3) : S2048x8192.Idx → EReal) := by
  after_results
  rfl

theorem v26_apply (j : Fin 2048) (k : Fin 8192) :
    (W9 m ρ c (Proc.devRef .tc main_v26) : S2048x8192.Idx → EReal) (ix2 j k)
      = Cert.BitFfn.wQuant (Cert.BitFfn.meanAbs (m ((c.tc : Thread nD τ).loc main_arg3) : S2048x8192.Idx → EReal))
          ((m ((c.tc : Thread nD τ).loc main_arg3) : S2048x8192.Idx → EReal) (ix2 j k)) :=
  (congrFun (v26_eq m ρ c) _).trans (hostQuant_apply _ _ _ _ _ _)

set_option maxHeartbeats 1000000 in
/-- The returned array is the second region's result, unfolded. -/
theorem v29_eq : (W12 m ρ c (Proc.devRef .tc main_v29) : S4x2048x2048.Idx → EReal)
    = shapeCast S4x2048x2048 (W11 m ρ c (Proc.devRef .tc main_v28) : S8192x2048.Idx → EReal)
        shapeCasts_S8192x2048_S4x2048x2048 := by
  after_results
  rfl

theorem v29_apply (b : Fin 4) (s : Fin 2048) (o : Fin 2048) :
    (W12 m ρ c (Proc.devRef .tc main_v29) : S4x2048x2048.Idx → EReal) (ix3 b s o)
      = (W11 m ρ c (Proc.devRef .tc main_v28) : S8192x2048.Idx → EReal) (ix2 ⟨b.val * 2048 + s.val, by omega⟩ o) :=
  (congrFun (v29_eq m ρ c) _).trans
    (Cert.LibRank3.cast_nc_abc 8192 rfl (W11 m ρ c (Proc.devRef .tc main_v28) : S8192x2048.Idx → EReal)
      shapeCasts_S8192x2048_S4x2048x2048 b s o)

end Cert.KernelIdeal.HostV

end
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.LibSoftmaxBlock.lean ====
/-
  The pieces of a softmax over the LAST axis of an `[a, b]` block as a vector unit computes it, read at an entry.

  A row statistic — the row's maximum, or the row's sum — is reduced to a vector `[a]`, kept as a column `[a, 1]`
  and spread back over the `b` columns. Read at `(r, m)` the spread statistic is the statistic of row `r`, whatever
  `m` is:
  • the maximum: the running maximum of row `r`'s entries from the accumulator word's value;
  • the sum: the sum of row `r`'s entries.
-/
import proofs.«151628_j58102317580688_1_alg».proof.Proof.LibKeepdims
import proofs.«151628_j58102317580688_1_alg».proof.Proof.LibMaxReduce

noncomputable section

namespace Cert.LibSoftmaxBlock

open Idealize.ShloMosaic Idealize.ShloMosaic.ValueIdx Cert.LibMaxReduce

/-- A row maximum kept as a column and spread over the columns, read at `(r, m)`: the running maximum of row `r`. -/
theorem rowMax_spread_apply {a b : ℕ} (S : FVec Ideal ⟨2, ![a, b]⟩ .f32) (acc : BitVec 32)
    (hr : (⟨2, ![a, b]⟩ : Shape).Reduces [1] ⟨1, ![a]⟩) (hφ : FKind.Formats .f32) (hacc : acc = FKind.maximumf.neutral .f32 hφ)
    (hc : (⟨1, ![a]⟩ : Shape).ShapeCasts ⟨2, ![a, 1]⟩) (hb : (⟨2, ![a, 1]⟩ : Shape).Broadcasts ⟨2, ![a, b]⟩)
    (r : Fin a) (m : Fin b) :
    broadcastTo ⟨2, ![a, b]⟩ (shapeCast ⟨2, ![a, 1]⟩ (multiReduction .maximumf [1] ⟨1, ![a]⟩ S acc hr hφ hacc) hc) hb (ix2 r m)
      = foldMax (Ideal.ofBits .f32 acc) (fun k : Fin b => S (ix2 r k)) :=
  (Cert.LibKeepdims.broadcastTo_a1_ab_apply _ hb r m (0 : Fin 1)).trans
    ((Cert.LibKeepdims.shapeCast_a_a1_apply _ hc r (0 : Fin 1)).trans
      (multiReduction_maximumf_lastAxis_apply S acc hr hφ hacc r))

/-- A row sum kept as a column and spread over the columns, read at `(r, m)`: the sum of row `r`. -/
theorem rowSum_spread_apply {a b : ℕ} (S : FVec Ideal ⟨2, ![a, b]⟩ .f32) (acc : BitVec 32)
    (hr : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (m : Fin b) :
    broadcastTo ⟨2, ![a, b]⟩ (shapeCast ⟨2, ![a, 1]⟩ (multiReduction .add [1] ⟨1, ![a]⟩ S acc hr hφ hacc) hc) hb (ix2 r m)
      = ∑ k : Fin b, S (ix2 r k) :=
  (Cert.LibKeepdims.broadcastTo_a1_ab_apply _ hb r m (0 : Fin 1)).trans
    ((Cert.LibKeepdims.shapeCast_a_a1_apply _ hc r (0 : Fin 1)).trans
      (Cert.LibKeepdims.multiReduction_add_lastAxis_apply S acc hr hφ hacc r))

/-- The exponential of each entry's distance below its row's maximum, read at `(r, m)`. -/
theorem expBelowRowMax_apply {a b : ℕ} (S : FVec Ideal ⟨2, ![a, b]⟩ .f32) (acc : BitVec 32)
    (hr : (⟨2, ![a, b]⟩ : Shape).Reduces [1] ⟨1, ![a]⟩) (hφ : FKind.Formats .f32) (hacc : acc = FKind.maximumf.neutral .f32 hφ)
    (hc : (⟨1, ![a]⟩ : Shape).ShapeCasts ⟨2, ![a, 1]⟩) (hb : (⟨2, ![a, 1]⟩ : Shape).Broadcasts ⟨2, ![a, b]⟩)
    (r : Fin a) (m : Fin b) :
    exp (subf S (broadcastTo ⟨2, ![a, b]⟩ (shapeCast ⟨2, ![a, 1]⟩ (multiReduction .maximumf [1] ⟨1, ![a]⟩ S acc hr hφ hacc) hc) hb)) (ix2 r m)
      = Ideal.exp (S (ix2 r m) - foldMax (Ideal.ofBits .f32 acc) (fun k : Fin b => S (ix2 r k))) :=
  congrArg (fun z : EReal => Ideal.exp (S (ix2 r m) - z)) (rowMax_spread_apply S acc hr hφ hacc hc hb r m)

/-- Each entry divided by its row's sum, read at `(r, m)`. -/
theorem overRowSum_apply {a b : ℕ} (X : FVec Ideal ⟨2, ![a, b]⟩ .f32) (acc : BitVec 32)
    (hr : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (m : Fin b) :
    divf X (broadcastTo ⟨2, ![a, b]⟩ (shapeCast ⟨2, ![a, 1]⟩ (multiReduction .add [1] ⟨1, ![a]⟩ X acc hr hφ hacc) hc) hb) (ix2 r m)
      = Ideal.div (X (ix2 r m)) (∑ k : Fin b, X (ix2 r k)) :=
  congrArg (fun z : EReal => Ideal.div (X (ix2 r m)) z) (rowSum_spread_apply X acc hr hφ hacc hc hb r m)

end Cert.LibSoftmaxBlock

end
-- ==== Proof.LibMatmulRhsT.lean ====
/-
  A matrix product that contracts BOTH operands' last axes, read at an index, at the ideal values.

  For an [A, K] matrix times a [B, K] matrix contracting the left operand's columns with the right operand's columns
  (the product of the first with the transpose of the second, written without forming the transpose) a `tpu.matmul`
  into the zero accumulator is, at (p, m), the sum over k of L(p, k) · R(m, k): a sum indexed by `Fin K`, with both
  operands read at indices written by coordinates. The contraction index of the library's general statement is
  re-indexed through its one coordinate, and the operand indices it names are computed axis by axis.
-/
import Idealize.ShloMosaic.PureOps.Ideal.Laws
import Idealize.ShloMosaic.Lib.ValueIdx

noncomputable section

namespace Cert.LibMatmulRhsT

open Idealize.ShloMosaic Idealize.ShloMosaic.ValueIdx

/-- For an [A, K] by [B, K] product contracting both last axes, the left operand's index at result (p, m) and
    contraction coordinate k is (p, k). -/
theorem transposedRhs_lhsIdx (A K B : Nat) (p : Fin A) (m : Fin B) (k : Fin K) :
    (DotDims.transposedRhs A K B).lhsIdx (ix2 p m) ((contrEquiv1 (DotDims.transposedRhs A K B) K rfl rfl).symm k) = ix2 p k :=
  funext fun a => Fin.ext (by
    match a with
    | ⟨0, _⟩ => rfl
    | ⟨1, _⟩ =>
      exact ((DotDims.transposedRhs A K B).lhsIdx_val_of_single (cl := 1) rfl _ _).trans
        (contrEquiv1_symm_val (DotDims.transposedRhs A K B) K rfl rfl k))

/-- The right operand's index there is (m, k). -/
theorem transposedRhs_rhsIdx (A K B : Nat) (p : Fin A) (m : Fin B) (k : Fin K) :
    (DotDims.transposedRhs A K B).rhsIdx (ix2 p m) ((contrEquiv1 (DotDims.transposedRhs A K B) K rfl rfl).symm k) = ix2 m k :=
  funext fun a => Fin.ext (by
    match a with
    | ⟨0, _⟩ => rfl
    | ⟨1, _⟩ =>
      exact ((DotDims.transposedRhs A K B).rhsIdx_val_of_single (cr := 1) rfl _ _).trans
        (contrEquiv1_symm_val (DotDims.transposedRhs A K B) K rfl rfl k))

/-- An [A, K] by [B, K] product contracting both last axes, into the zero accumulator, read at (p, m):
    Σ_k L(p, k) · R(m, k). -/
theorem matmul_transposedRhs_zero_apply (A K B : Nat) {φ₁ φ₂ : FTy} (prec : Option ContractPrecision)
    (lhs : FVec Ideal ⟨2, ![A, K]⟩ φ₁) (rhs : FVec Ideal ⟨2, ![B, K]⟩ φ₂) (p : Fin A) (m : Fin B) :
    FloatOps.matmul (DotDims.transposedRhs A K B) prec lhs rhs (constant ⟨2, ![A, B]⟩ .f32 0x00000000#32) (ix2 p m)
      = ∑ k : Fin K, lhs (ix2 p k) * rhs (ix2 m k) := by
  rw [Ideal.matmul_constant_zero_apply, ← Equiv.sum_comp (contrEquiv1 (DotDims.transposedRhs A K B) K rfl rfl).symm]
  refine Finset.sum_congr rfl fun k _ => ?_
  rw [transposedRhs_lhsIdx, transposedRhs_rhsIdx]

end Cert.LibMatmulRhsT

end
-- ==== Proof.LibRowBroadcast.lean ====
/-
  A ROW `[1, b]` spread over `a` rows: the broadcast to `[a, b]` reads, at `(p, c)`, the row's entry of column `c`
  — every row of the result is the one row of the operand. The unit coordinate `u : Fin 1` is whatever the caller
  writes: there is only one.
-/
import Idealize.ShloMosaic.Lib.ValueLayout

namespace Cert.LibRowBroadcast

open Idealize.ShloMosaic Idealize.ShloMosaic.ValueIdx

variable {α : Type}

/-- A row `[1, b]` broadcast to `[a, b]` reads, at `(p, c)`, the row's entry of column `c`. -/
theorem broadcastTo_1b_ab_apply {a b : ℕ} (v : (⟨2, ![1, b]⟩ : Shape).Idx → α) (h : (⟨2, ![1, b]⟩ : Shape).Broadcasts ⟨2, ![a, b]⟩)
    (p : Fin a) (c : Fin b) (u : Fin 1) : broadcastTo ⟨2, ![a, b]⟩ v h (ix2 p c) = v (ix2 u c) := by
  refine broadcastTo_apply v h (ix2 p c) (ix2 u c) fun ax => ?_
  match ax with
  | ⟨0, _⟩ =>
    show u.val = if (1 : ℕ) = 1 then 0 else p.val
    rw [if_pos rfl]; omega
  | ⟨1, _⟩ =>
    show c.val = if b = 1 then 0 else c.val
    split
    · have := c.isLt; omega
    · rfl

end Cert.LibRowBroadcast
-- ==== Proof.PayRead.lean ====
/-
  The two kernel bodies' arithmetic, read at one entry of the block they write.

  Each body takes a block of rows, normalises every row by its root mean square and a gain row, quantises the row to
  the 8-bit grid of its own largest magnitude, and multiplies it into the rows of a weight block (a product that
  contracts both operands' last axes). The first body then passes the product through a squared rectifier.

  Read at the entry (p, q) the result only sees row p of the activations, the one gain row, and row q of the weights:
  it is the row functions of the shared specification applied to those rows. The common part of the two bodies is
  written once, for an [a, b] block, in four layers — the column of mean squares, the normalised block, the column
  of 8-bit scales, the quantised block — each read at an entry by pushing the index through the pointwise operations
  and through the keep-the-axis reductions (reduce to a vector [a], cast to a column [a, 1], spread over b columns).
-/
import proofs.«151628_j58102317580688_1_alg».proof.Proof.Gen.KernelIdeal.Skeleton
import proofs.«151628_j58102317580688_1_alg».proof.Proof.Spec
import proofs.«151628_j58102317580688_1_alg».proof.Proof.LibKeepdims
import proofs.«151628_j58102317580688_1_alg».proof.Proof.LibMaxReduce
import proofs.«151628_j58102317580688_1_alg».proof.Proof.LibSoftmaxBlock
import proofs.«151628_j58102317580688_1_alg».proof.Proof.LibMatmulRhsT
import proofs.«151628_j58102317580688_1_alg».proof.Proof.LibRowBroadcast

noncomputable section

namespace Cert.PayRead

open Idealize.ShloMosaic Idealize.ShloMosaic.ValueIdx Cert.LibMaxReduce Cert.BitFfn

variable {a b : ℕ}

/-! ## The common part, over an [a, b] block -/

/-- The column of row statistics under the norm: each row's sum of squares over the row length (the float word n),
    plus the norm's epsilon. -/
def msCol (n : BitVec 32) (x : FVec Ideal ⟨2, ![a, b]⟩ .f32)
    (hr : (⟨2, ![a, b]⟩ : Shape).Reduces [1] ⟨1, ![a]⟩) (hc : (⟨1, ![a]⟩ : Shape).ShapeCasts ⟨2, ![a, 1]⟩) :
    FVec Ideal ⟨2, ![a, 1]⟩ .f32 :=
  addf
    (divf (shapeCast ⟨2, ![a, 1]⟩ (multiReduction (F := Ideal) .add [1] ⟨1, ![a]⟩ (mulf x x) 0x00000000#32 hr (.inl rfl) rfl) hc)
      (broadcast ⟨2, ![a, 1]⟩ (Scalar.ofBits (F := Ideal) .f32 n)))
    (broadcast ⟨2, ![a, 1]⟩ (Scalar.ofBits (F := Ideal) .f32 0x358637BD#32))

/-- The column of mean squares at row p is the mean square of row p. -/
theorem msCol_apply (n : BitVec 32) (x : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (p : Fin a) (u : Fin 1) :
    msCol n x hr hc (ix2 p u) = meanSq (bits n) (fun k => x (ix2 p k)) := by
  exact congrArg (fun s : EReal => Ideal.div s (bits n) + bits 0x358637BD#32)
    ((Cert.LibKeepdims.shapeCast_a_a1_apply _ hc p u).trans
      (Cert.LibKeepdims.multiReduction_add_lastAxis_apply (mulf x x) 0x00000000#32 hr (.inl rfl) rfl p))

/-- The normalised block: each entry times its row's reciprocal root mean square, times the gain of its column. -/
def normedBlk (n : BitVec 32) (x : FVec Ideal ⟨2, ![a, b]⟩ .f32) (g : FVec Ideal ⟨2, ![1, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hg : (⟨2, ![1, b]⟩ : Shape).Broadcasts ⟨2, ![a, b]⟩) :
    FVec Ideal ⟨2, ![a, b]⟩ .f32 :=
  mulf (mulf x (broadcastTo ⟨2, ![a, b]⟩ (rsqrt (msCol n x hr hc)) hb)) (broadcastTo ⟨2, ![a, b]⟩ g hg)

/-- The normalised block at (p, k) is the normalised row p at k. -/
theorem normedBlk_apply (n : BitVec 32) (x : FVec Ideal ⟨2, ![a, b]⟩ .f32) (g : FVec Ideal ⟨2, ![1, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hg : (⟨2, ![1, b]⟩ : Shape).Broadcasts ⟨2, ![a, b]⟩)
    (p : Fin a) (k : Fin b) :
    normedBlk n x g hr hc hb hg (ix2 p k)
      = normed (bits n) (fun k => x (ix2 p k)) (fun k => g (ix2 (0 : Fin 1) k)) k := by
  show x (ix2 p k) * broadcastTo ⟨2, ![a, b]⟩ (rsqrt (msCol n x hr hc)) hb (ix2 p k) * broadcastTo ⟨2, ![a, b]⟩ g hg (ix2 p k)
      = x (ix2 p k) * Ideal.rsqrt (meanSq (bits n) (fun k => x (ix2 p k))) * g (ix2 (0 : Fin 1) k)
  rw [Cert.LibKeepdims.broadcastTo_a1_ab_apply _ hb p k (0 : Fin 1), Cert.LibRowBroadcast.broadcastTo_1b_ab_apply g hg p k (0 : Fin 1)]
  show x (ix2 p k) * Ideal.rsqrt (msCol n x hr hc (ix2 p (0 : Fin 1))) * g (ix2 (0 : Fin 1) k) = _
  rw [msCol_apply]

/-- The column of 8-bit scales: 127 over each row's largest magnitude, the magnitude kept above the scale's epsilon. -/
def scaleCol (y : FVec Ideal ⟨2, ![a, b]⟩ .f32)
    (hr : (⟨2, ![a, b]⟩ : Shape).Reduces [1] ⟨1, ![a]⟩) (hc : (⟨1, ![a]⟩ : Shape).ShapeCasts ⟨2, ![a, 1]⟩) :
    FVec Ideal ⟨2, ![a, 1]⟩ .f32 :=
  divf (broadcast ⟨2, ![a, 1]⟩ (Scalar.ofBits (F := Ideal) .f32 0x42FE0000#32))
    (maximumf
      (shapeCast ⟨2, ![a, 1]⟩ (multiReduction (F := Ideal) .maximumf [1] ⟨1, ![a]⟩ (absf y) 0xFF800000#32 hr (.inl rfl) rfl) hc)
      (broadcast ⟨2, ![a, 1]⟩ (Scalar.ofBits (F := Ideal) .f32 0x3727C5AC#32)))

/-- The column of scales at row p is the scale of row p. -/
theorem scaleCol_apply (y : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (p : Fin a) (u : Fin 1) :
    scaleCol y hr hc (ix2 p u) = rowScale (fun k => y (ix2 p k)) := by
  exact congrArg (fun s : EReal => Ideal.div (bits 0x42FE0000#32) (max s (bits 0x3727C5AC#32)))
    ((Cert.LibKeepdims.shapeCast_a_a1_apply _ hc p u).trans
      (multiReduction_maximumf_lastAxis_apply (absf y) 0xFF800000#32 hr (.inl rfl) rfl p))

/-- The quantised block: each entry scaled by its row's scale, rounded, clipped to [−128, 127], scaled back. -/
def quantBlk (y : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) : FVec Ideal ⟨2, ![a, b]⟩ .f32 :=
  divf
    (minimumf (broadcast ⟨2, ![a, b]⟩ (Scalar.ofBits (F := Ideal) .f32 0x42FE0000#32))
      (maximumf (broadcast ⟨2, ![a, b]⟩ (Scalar.ofBits (F := Ideal) .f32 0xC3000000#32))
        (roundeven (mulf y (broadcastTo ⟨2, ![a, b]⟩ (scaleCol y hr hc) hb)))))
    (broadcastTo ⟨2, ![a, b]⟩ (scaleCol y hr hc) hb)

/-- The quantised block at (p, k) is the quantised row p at k. -/
theorem quantBlk_apply (y : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (p : Fin a) (k : Fin b) :
    quantBlk y hr hc hb (ix2 p k) = quant (fun k => y (ix2 p k)) k := by
  show Ideal.div
      (min (bits 0x42FE0000#32) (max (bits 0xC3000000#32)
        (rne (y (ix2 p k) * broadcastTo ⟨2, ![a, b]⟩ (scaleCol y hr hc) hb (ix2 p k)))))
      (broadcastTo ⟨2, ![a, b]⟩ (scaleCol y hr hc) hb (ix2 p k)) = _
  rw [Cert.LibKeepdims.broadcastTo_a1_ab_apply _ hb p k (0 : Fin 1), scaleCol_apply]
  rfl

/-- The quantised normalised block. -/
def qBlk (n : BitVec 32) (x : FVec Ideal ⟨2, ![a, b]⟩ .f32) (g : FVec Ideal ⟨2, ![1, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hg : (⟨2, ![1, b]⟩ : Shape).Broadcasts ⟨2, ![a, b]⟩) :
    FVec Ideal ⟨2, ![a, b]⟩ .f32 :=
  quantBlk (normedBlk n x g hr hc hb hg) hr hc hb

/-- The quantised normalised block at (p, k): row p normalised, then quantised, at k. -/
theorem qBlk_apply (n : BitVec 32) (x : FVec Ideal ⟨2, ![a, b]⟩ .f32) (g : FVec Ideal ⟨2, ![1, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hg : (⟨2, ![1, b]⟩ : Shape).Broadcasts ⟨2, ![a, b]⟩)
    (p : Fin a) (k : Fin b) :
    qBlk n x g hr hc hb hg (ix2 p k)
      = quant (normed (bits n) (fun k => x (ix2 p k)) (fun k => g (ix2 (0 : Fin 1) k))) k :=
  (quantBlk_apply (normedBlk n x g hr hc hb hg) hr hc hb p k).trans
    (congrArg (fun y : Fin b → EReal => quant y k) (funext fun k' => normedBlk_apply n x g hr hc hb hg p k'))

/-- The quantised normalised block, narrowed (the identity on the extended reals), times the transpose of a weight
    block [c, b] (a product contracting both operands' last axes), into the zero accumulator, at (p, q): the dot
    product of the quantised normalised row p with the weights' row q. -/
theorem product_apply {c : ℕ} (d : DotDims ⟨2, ![a, b]⟩ ⟨2, ![c, b]⟩ ⟨2, ![a, c]⟩) (hd : d = DotDims.transposedRhs a b c)
    (n : BitVec 32) (x : FVec Ideal ⟨2, ![a, b]⟩ .f32) (g : FVec Ideal ⟨2, ![1, b]⟩ .f32)
    (w : FVec Ideal ⟨2, ![c, b]⟩ .bf16)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hg : (⟨2, ![1, b]⟩ : Shape).Broadcasts ⟨2, ![a, b]⟩)
    (ht : FTy.bits .bf16 < FTy.bits .f32) (p : Fin a) (q : Fin c) :
    FloatOps.matmul d none (truncf .bf16 (qBlk n x g hr hc hb hg) ht) w
        (constant (F := Ideal) ⟨2, ![a, c]⟩ .f32 0x00000000#32) (ix2 p q)
      = lin (quant (normed (bits n) (fun k => x (ix2 p k)) (fun k => g (ix2 (0 : Fin 1) k)))) (fun k => w (ix2 q k)) := by
  subst hd
  refine (Cert.LibMatmulRhsT.matmul_transposedRhs_zero_apply a b c none _ w p q).trans ?_
  exact Finset.sum_congr rfl fun k _ =>
    congrArg (fun z : EReal => z * w (ix2 q k)) (qBlk_apply n x g hr hc hb hg p k)

/-- A squared rectifier written with pointwise operations, read at an entry. -/
theorem sqRelu_apply {s : Shape} (M : FVec Ideal s .f32) (i : s.Idx) :
    mulf (maximumf M (broadcast s (Scalar.ofBits (F := Ideal) .f32 0x00000000#32)))
        (maximumf M (broadcast s (Scalar.ofBits (F := Ideal) .f32 0x00000000#32))) i
      = Cert.BitFfn.hidden (M i) := rfl

/-! ## The two bodies -/

section Bodies
open Cert.KernelIdeal Cert.KernelIdeal.Gen

/-- The first body's product: the quantised normalised activations (rows of 2048 entries) times the transposed weights. -/
def prod0 (v0 : Vec Ideal S256x2048 .f32) (v12 : Vec Ideal S1x2048 .f32) (v33 : Vec Ideal S2048x2048 .bf16) :
    FVec Ideal S256x2048 .f32 :=
  matmul (F := Ideal) (φ₁ := .bf16) (φ₂ := .bf16) dot_S256x2048_S2048x2048_S256x2048_1_1_0_0_n_n none
    (truncf .bf16 (qBlk 0x45000000#32 (shapeCast S256x2048 v0 shapeCasts_S256x2048_S256x2048)
      (shapeCast S1x2048 v12 shapeCasts_S1x2048_S1x2048) reduces_S256x2048_S256 shapeCasts_S256_S256x1
      broadcasts_S256x1_S256x2048 broadcasts_S1x2048_S256x2048) bitsLt_bf16_f32)
    (shapeCast S2048x2048 v33 shapeCasts_S2048x2048_S2048x2048)
    (constant (F := Ideal) S256x2048 .f32 0x00000000#32)

set_option maxRecDepth 65536 in
/-- The first body is the squared rectifier of its product: the two are the same term. -/
theorem pay0_eq (v0 : Vec Ideal S256x2048 .f32) (v12 : Vec Ideal S1x2048 .f32) (v33 : Vec Ideal S2048x2048 .bf16) :
    k0_pay1 (F := Ideal) v0 v12 v33
      = mulf (maximumf (prod0 v0 v12 v33) (broadcast S256x2048 (Scalar.ofBits (F := Ideal) .f32 0x00000000#32)))
          (maximumf (prod0 v0 v12 v33) (broadcast S256x2048 (Scalar.ofBits (F := Ideal) .f32 0x00000000#32))) := rfl

/-- The first body's product at (p, q). -/
theorem prod0_apply (v0 : Vec Ideal S256x2048 .f32) (v12 : Vec Ideal S1x2048 .f32) (v33 : Vec Ideal S2048x2048 .bf16)
    (p : Fin 256) (q : Fin 2048) :
    prod0 v0 v12 v33 (ix2 p q)
      = lin (quant (normed N1 (fun k => v0 (ix2 p k)) (fun k => v12 (ix2 (0 : Fin 1) k)))) (fun k => v33 (ix2 q k)) := by
  refine (product_apply dot_S256x2048_S2048x2048_S256x2048_1_1_0_0_n_n rfl 0x45000000#32
    (shapeCast S256x2048 v0 shapeCasts_S256x2048_S256x2048) (shapeCast S1x2048 v12 shapeCasts_S1x2048_S1x2048)
    (shapeCast S2048x2048 v33 shapeCasts_S2048x2048_S2048x2048) reduces_S256x2048_S256 shapeCasts_S256_S256x1
    broadcasts_S256x1_S256x2048 broadcasts_S1x2048_S256x2048 bitsLt_bf16_f32 p q).trans ?_
  rw [shapeCast_self, shapeCast_self, shapeCast_self]

/-- The first body's value at (p, q): the squared rectifier of the dot product of row p, normalised over its 2048
    entries and quantised, with row q of the weights. -/
theorem pay0_apply (v0 : Vec Ideal S256x2048 .f32) (v12 : Vec Ideal S1x2048 .f32) (v33 : Vec Ideal S2048x2048 .bf16)
    (p : Fin 256) (q : Fin 2048) :
    Cert.KernelIdeal.Gen.k0_pay1 (F := Ideal) v0 v12 v33 (ix2 p q)
      = Cert.BitFfn.hidden (lin (quant (normed N1 (fun k => v0 (ix2 p k)) (fun k => v12 (ix2 (0 : Fin 1) k)))) (fun k => v33 (ix2 q k))) :=
  (congrFun (pay0_eq v0 v12 v33) (ix2 p q)).trans
    ((sqRelu_apply (prod0 v0 v12 v33) (ix2 p q)).trans (congrArg Cert.BitFfn.hidden (prod0_apply v0 v12 v33 p q)))

/-- The second body's product: the quantised normalised activations (rows of 8192 entries) times the transposed weights. -/
def prod1 (v0 : Vec Ideal S128x8192 .f32) (v12 : Vec Ideal S1x8192 .f32) (v33 : Vec Ideal S1024x8192 .bf16) :
    FVec Ideal S128x1024 .f32 :=
  matmul (F := Ideal) (φ₁ := .bf16) (φ₂ := .bf16) dot_S128x8192_S1024x8192_S128x1024_1_1_0_0_n_n none
    (truncf .bf16 (qBlk 0x46000000#32 (shapeCast S128x8192 v0 shapeCasts_S128x8192_S128x8192)
      (shapeCast S1x8192 v12 shapeCasts_S1x8192_S1x8192) reduces_S128x8192_S128 shapeCasts_S128_S128x1
      broadcasts_S128x1_S128x8192 broadcasts_S1x8192_S128x8192) bitsLt_bf16_f32)
    (shapeCast S1024x8192 v33 shapeCasts_S1024x8192_S1024x8192)
    (constant (F := Ideal) S128x1024 .f32 0x00000000#32)

set_option maxRecDepth 65536 in
/-- The second body is its product: the two are the same term. -/
theorem pay1_eq (v0 : Vec Ideal S128x8192 .f32) (v12 : Vec Ideal S1x8192 .f32) (v33 : Vec Ideal S1024x8192 .bf16) :
    k1_pay1 (F := Ideal) v0 v12 v33 = prod1 v0 v12 v33 := rfl

/-- The second body's value at (p, q): the dot product of row p, normalised over its 8192 entries and quantised, with
    row q of the weights. -/
theorem pay1_apply (v0 : Vec Ideal S128x8192 .f32) (v12 : Vec Ideal S1x8192 .f32) (v33 : Vec Ideal S1024x8192 .bf16)
    (p : Fin 128) (q : Fin 1024) :
    Cert.KernelIdeal.Gen.k1_pay1 (F := Ideal) v0 v12 v33 (ix2 p q)
      = lin (quant (normed N2 (fun k => v0 (ix2 p k)) (fun k => v12 (ix2 (0 : Fin 1) k)))) (fun k => v33 (ix2 q k)) := by
  refine (congrFun (pay1_eq v0 v12 v33) (ix2 p q)).trans ?_
  refine (product_apply dot_S128x8192_S1024x8192_S128x1024_1_1_0_0_n_n rfl 0x46000000#32
    (shapeCast S128x8192 v0 shapeCasts_S128x8192_S128x8192) (shapeCast S1x8192 v12 shapeCasts_S1x8192_S1x8192)
    (shapeCast S1024x8192 v33 shapeCasts_S1024x8192_S1024x8192) reduces_S128x8192_S128 shapeCasts_S128_S128x1
    broadcasts_S128x1_S128x8192 broadcasts_S1x8192_S128x8192 bitsLt_bf16_f32 p q).trans ?_
  rw [shapeCast_self, shapeCast_self, shapeCast_self]

end Bodies

end Cert.PayRead

end
-- ==== Proof.KernelValue.lean ====
/-
  The idealized kernel's result, entry by entry, as the first arrangement of the feed-forward block.

  The result buffer's last contents are the closing reshape of the second region's output array. That array is `Out` of
  what the second region found: the hidden array the first region left, the second gain row and the quantised second
  weights, the latter two untouched by the first region. The hidden array is `Hid` of what the first region found: the
  flattened activations, the first gain row and the quantised first weights, all written by the host operations before
  it from the launch arrays. Read at (b, s, o) the chain is `ffnK` at the activation row (b, s).
-/
import proofs.«151628_j58102317580688_1_alg».proof.Proof.Regions
import proofs.«151628_j58102317580688_1_alg».proof.Proof.KernelHost
import proofs.«151628_j58102317580688_1_alg».proof.Proof.PayRead

set_option maxRecDepth 16384

noncomputable section

namespace Cert.KernelIdeal.ValueV

open Idealize.ShloMosaic Idealize.ShloMosaic.TcCoe Idealize.SL.Sem Idealize.ShloMosaic.ValueIdx
open Cert.KernelIdeal Cert.KernelIdeal.Gen Cert.KernelIdeal.Regions Cert.KernelIdeal.HostV Cert.BitFfn

variable (m : (ℓ : Loc nD τ sig) → Buf (Elt Ideal) ℓ) (ρ : Dev nD → PrngReg)

/-- After the first region the hidden array's buffer holds `Hid` of the region's entry contents. -/
theorem hidden_array (c : Dev nD) : (V10 m ρ c main_v27 : S8192x8192.Idx → EReal) = Hid (V9 m ρ) c :=
  (W10_arr m ρ c 3).trans (final0 (V9 m ρ) Cert.PayRead.pay0_apply c)

/-- The first region leaves the second gain row and the quantised second weights as it found them. -/
theorem gain2_kept (c : Dev nD) : (V10 m ρ c main_v2 : S1x8192.Idx → EReal) = V9 m ρ c main_v2 :=
  W10_of_ne m ρ c main_v2 (by decide)
theorem weights2_kept (c : Dev nD) : (V10 m ρ c main_v26 : S2048x8192.Idx → EReal) = V9 m ρ c main_v26 :=
  W10_of_ne m ρ c main_v26 (by decide)

/-- After the second region the output array's buffer holds `Out` of that region's entry contents. -/
theorem output_array (c : Dev nD) : (W11 m ρ c (Proc.devRef .tc main_v28) : S8192x2048.Idx → EReal) = Out (V10 m ρ) c :=
  (W11_arr m ρ c 3).trans (final1 (V10 m ρ) Cert.PayRead.pay1_apply c)

/-- The result at (b, s, o). -/
theorem result_apply (c : Dev nD) (b : Fin 4) (s : Fin 2048) (o : Fin 2048) :
    (W12 m ρ c (Proc.devRef .tc main_v29) : S4x2048x2048.Idx → EReal) (ix3 b s o)
      = ffnK (fun k => (m ((c.tc : Thread nD τ).loc main_arg0) : S4x2048x2048.Idx → EReal) (ix3 b s k))
          (fun k => (m ((c.tc : Thread nD τ).loc main_arg2) : S2048.Idx → EReal) (ix1 k))
          (fun j k => (m ((c.tc : Thread nD τ).loc main_arg1) : S8192x2048.Idx → EReal) (ix2 j k))
          (meanAbs (m ((c.tc : Thread nD τ).loc main_arg1) : S8192x2048.Idx → EReal))
          (fun k => (m ((c.tc : Thread nD τ).loc main_arg4) : S8192.Idx → EReal) (ix1 k))
          (fun j k => (m ((c.tc : Thread nD τ).loc main_arg3) : S2048x8192.Idx → EReal) (ix2 j k))
          (meanAbs (m ((c.tc : Thread nD τ).loc main_arg3) : S2048x8192.Idx → EReal)) o := by
  rw [v29_apply m ρ c b s o, output_array m ρ c]
  show lin (quant (normed N2 (fun k : Fin 8192 => (V10 m ρ c main_v27 : S8192x8192.Idx → EReal) (ix2 (⟨b.val * 2048 + s.val, by omega⟩ : Fin 8192) k))
      (fun k : Fin 8192 => (V10 m ρ c main_v2 : S1x8192.Idx → EReal) (ix2 (0 : Fin 1) k))))
    (fun k : Fin 8192 => (V10 m ρ c main_v26 : S2048x8192.Idx → EReal) (ix2 o k)) = _
  rw [hidden_array m ρ c, gain2_kept m ρ c, weights2_kept m ρ c]
  show lin (quant (normed N2 (fun j : Fin 8192 => hidden (lin (quant (normed N1
        (fun k : Fin 2048 => (W9 m ρ c (Proc.devRef .tc main_v0) : S8192x2048.Idx → EReal) (ix2 (⟨b.val * 2048 + s.val, by omega⟩ : Fin 8192) k))
        (fun k : Fin 2048 => (W9 m ρ c (Proc.devRef .tc main_v1) : S1x2048.Idx → EReal) (ix2 (0 : Fin 1) k))))
        (fun k : Fin 2048 => (W9 m ρ c (Proc.devRef .tc main_v14) : S8192x2048.Idx → EReal) (ix2 j k))))
      (fun k : Fin 8192 => (W9 m ρ c (Proc.devRef .tc main_v2) : S1x8192.Idx → EReal) (ix2 (0 : Fin 1) k))))
    (fun k : Fin 8192 => (W9 m ρ c (Proc.devRef .tc main_v26) : S2048x8192.Idx → EReal) (ix2 o k)) = _
  simp only [v0_apply m ρ c, v1_apply m ρ c, v2_apply m ρ c, v14_apply m ρ c, v26_apply m ρ c]
  rfl

end Cert.KernelIdeal.ValueV

end
-- ==== Proof.LibMaxReduce3.lean ====
/-
  The host's maximum reduction over the LAST axis of a rank-3 array `[a, b, n]`, read at an index, at the ideal values.

  On the extended reals the host's one-operand reduce with a maximum body, from an initial value, is at `(p, q)` the
  running maximum of the `n` entries `x (p, q, k)` from that initial value: a fold of `max` over the reduced axis's
  coordinate, whose order does not matter. (The same reading of a matrix's two axes is in `LibMaxReduce`, whose
  `foldMax` this uses.)
-/
import Idealize.ShloMosaic.Lib.ValueIdx
import Idealize.ShloMosaic.PureOps.Ideal.Laws
import proofs.«151628_j58102317580688_1_alg».proof.Proof.LibMaxReduce

noncomputable section

namespace Cert.LibMaxReduce3

open Idealize.ShloMosaic Idealize.ShloMosaic.ValueIdx Cert.LibMaxReduce

/-- The host's one-operand reduce with a maximum body over the LAST axis of an `[a, b, n]` array, read at `(p, q)`:
    the running maximum of the entries `x (p, q, k)` from the initial value's element. -/
theorem hostReduce_maximumf_lastAxis3_apply {a b n : ℕ} {u : Shape} (x : (⟨3, ![a, b, n]⟩ : Shape).Idx → EReal)
    (init : u.Idx → EReal) (h' : (⟨3, ![a, b, n]⟩ : Shape).ReducesTo [2] ⟨2, ![a, b]⟩)
    (h : (⟨3, ![a, b, n]⟩ : Shape).Reduces [2] ⟨2, ![a, b]⟩) (hu : 0 < u.numel) (p : Fin a) (q : Fin b) :
    Host.reduce (FloatOps.maximumf (F := Ideal) (φ := .f32)) x init h' hu (ix2 p q)
      = foldMax (init (Shape.Idx.first hu)) (fun k : Fin n => x (ix3 p q k)) := by
  refine (Host.reduce_eq_fold_single (FloatOps.maximumf (F := Ideal) (φ := .f32)) x init h' h hu (ix2 p q)).trans ?_
  unfold foldMax
  refine congrArg (fun f : Fin n → EReal => Finset.fold max (init (Shape.Idx.first hu)) f Finset.univ)
    (funext fun k => congrArg x ?_)
  funext ax; apply Fin.ext
  match ax with
  | ⟨0, _⟩ => rfl
  | ⟨1, _⟩ => rfl
  | ⟨2, _⟩ => rfl

end Cert.LibMaxReduce3

end
-- ==== Proof.RefRead.lean ====
/-
  The reference program read at one output entry.

  The reference computes, for every batch `b` and position `s`, a row-wise function of the input row
  `x (b, s, ·)`: the row is divided by its root mean square and multiplied by a gain; the result is put on the 8-bit grid
  of its own largest magnitude, written as `y + (q − y)`; the weights are put on the ternary grid of their mean
  magnitude, written as `w + (q − w)`; the two are multiplied into a dot product. A first layer of such products goes
  through the squared rectifier and is the row of a second layer of the same form.

  Each stage below reads one operation group of the printed program at coordinates `(b, s, k)`: the broadcasts
  forget or repeat coordinates, the sums and the running maximum run over the last coordinate, and what is left is the
  scalar function of rows that the specification names. The second layer's row is kept as one name (`hid`) while
  its stages are read, and is replaced by the first layer's value at the end.
-/
import proofs.«151628_j58102317580688_1_alg».proof.Proof.RefReadP
import proofs.«151628_j58102317580688_1_alg».proof.Proof.Spec
import proofs.«151628_j58102317580688_1_alg».proof.Proof.LibMaxReduce3

noncomputable section

namespace Cert.RefRead

open Cert.ReferenceIdeal Cert.ReferenceIdeal.Gen Cert.ReferenceIdeal.ReadP
open Idealize.ShloMosaic Idealize.ShloMosaic.TcCoe Idealize.SL.Sem Idealize.ShloMosaic.StableHlo
open Idealize.ShloMosaic.ValueIdx Cert.LibMaxReduce Cert.LibMaxReduce3

variable (x0 : (⟨S4x2048x2048, .f32⟩ : BufTy).Contents (Elt Ideal)) (x1 : (⟨S8192x2048, .f32⟩ : BufTy).Contents (Elt Ideal))
  (x2 : (⟨S2048, .f32⟩ : BufTy).Contents (Elt Ideal)) (x3 : (⟨S2048x8192, .f32⟩ : BufTy).Contents (Elt Ideal))
  (x4 : (⟨S8192, .f32⟩ : BufTy).Contents (Elt Ideal))

/-! ## Index equations: the composed index maps of the broadcasts, sums and products, at coordinates -/

section Indices
variable (b : Fin 4) (s : Fin 2048) (k : Fin 2048) (j : Fin 8192) (o : Fin 2048) (u : Fin 1)

theorem idx1 : idx_main_v1 (ix2 b s) k = ix3 b s k :=
  funext fun a => Fin.ext (by match a with | ⟨0, _⟩ => rfl | ⟨1, _⟩ => rfl | ⟨2, _⟩ => rfl)
theorem idx2 : idx_main_v2 (ix3 b s u) = ix2 b s :=
  funext fun a => Fin.ext (by match a with | ⟨0, _⟩ => rfl | ⟨1, _⟩ => rfl)
theorem idx8 : idx_main_v8 (ix3 b s k) = ix3 b s (0 : Fin 1) :=
  funext fun a => Fin.ext (by match a with | ⟨0, _⟩ => rfl | ⟨1, _⟩ => rfl | ⟨2, _⟩ => rfl)
theorem idx10 : idx_main_v10 (idx_main_v11 (ix3 b s k)) = ix1 k :=
  funext fun a => Fin.ext (by match a with | ⟨0, _⟩ => rfl)
theorem idx15 : idx_main_v15 (ix3 b s u) = ix2 b s :=
  funext fun a => Fin.ext (by match a with | ⟨0, _⟩ => rfl | ⟨1, _⟩ => rfl)
theorem idx19 : idx_main_v19 (ix3 b s k) = ix3 b s (0 : Fin 1) :=
  funext fun a => Fin.ext (by match a with | ⟨0, _⟩ => rfl | ⟨1, _⟩ => rfl | ⟨2, _⟩ => rfl)
theorem idx23 : idx_main_v23 (ix3 b s k) = ix3 b s (0 : Fin 1) :=
  funext fun a => Fin.ext (by match a with | ⟨0, _⟩ => rfl | ⟨1, _⟩ => rfl | ⟨2, _⟩ => rfl)
theorem lidx40 : lidx_main_v40 (ix3 b s j) k = ix3 b s k :=
  funext fun a => Fin.ext (by match a with | ⟨0, _⟩ => rfl | ⟨1, _⟩ => rfl | ⟨2, _⟩ => rfl)
theorem ridx40 : ridx_main_v40 (ix3 b s j) k = ix2 j k :=
  funext fun a => Fin.ext (by match a with | ⟨0, _⟩ => rfl | ⟨1, _⟩ => rfl)

theorem idx44 : idx_main_v44 (ix2 b s) j = ix3 b s j :=
  funext fun a => Fin.ext (by match a with | ⟨0, _⟩ => rfl | ⟨1, _⟩ => rfl | ⟨2, _⟩ => rfl)
theorem idx45 : idx_main_v45 (ix3 b s u) = ix2 b s :=
  funext fun a => Fin.ext (by match a with | ⟨0, _⟩ => rfl | ⟨1, _⟩ => rfl)
theorem idx51 : idx_main_v51 (ix3 b s j) = ix3 b s (0 : Fin 1) :=
  funext fun a => Fin.ext (by match a with | ⟨0, _⟩ => rfl | ⟨1, _⟩ => rfl | ⟨2, _⟩ => rfl)
theorem idx53 : idx_main_v53 (idx_main_v54 (ix3 b s j)) = ix1 j :=
  funext fun a => Fin.ext (by match a with | ⟨0, _⟩ => rfl)
theorem idx58 : idx_main_v58 (ix3 b s u) = ix2 b s :=
  funext fun a => Fin.ext (by match a with | ⟨0, _⟩ => rfl | ⟨1, _⟩ => rfl)
theorem idx62 : idx_main_v62 (ix3 b s j) = ix3 b s (0 : Fin 1) :=
  funext fun a => Fin.ext (by match a with | ⟨0, _⟩ => rfl | ⟨1, _⟩ => rfl | ⟨2, _⟩ => rfl)
theorem idx66 : idx_main_v66 (ix3 b s j) = ix3 b s (0 : Fin 1) :=
  funext fun a => Fin.ext (by match a with | ⟨0, _⟩ => rfl | ⟨1, _⟩ => rfl | ⟨2, _⟩ => rfl)
theorem lidx83 : lidx_main_v83 (ix3 b s o) j = ix3 b s j :=
  funext fun a => Fin.ext (by match a with | ⟨0, _⟩ => rfl | ⟨1, _⟩ => rfl | ⟨2, _⟩ => rfl)
theorem ridx83 : ridx_main_v83 (ix3 b s o) j = ix2 o j :=
  funext fun a => Fin.ext (by match a with | ⟨0, _⟩ => rfl | ⟨1, _⟩ => rfl)

end Indices

/-! ## The first layer's row: normalised, scaled, quantised -/

section Layer1
variable (b : Fin 4) (s : Fin 2048)

/-- The root mean square of the input row `(b, s, ·)`, on the keepdims column. -/
theorem v7_at (u : Fin 1) :
    val_main_v7 (F := Ideal) x0 (ix3 b s u) = Ideal.sqrt (BitFfn.meanSqR BitFfn.N1 (fun k => x0 (ix3 b s k))) := by
  rw [val_main_v7_apply, val_main_v6_apply, val_main_v4_apply, val_main_v2_apply, val_main_v3_apply, val_main_v5_apply,
    val_main_cst_0_apply, val_main_cst_1_apply, idx2, val_main_v1_apply, val_main_cst_apply]
  simp only [idx1, val_main_v0_apply]
  simp only [Ideal.hostUnary_sqrt_def, Ideal.addf_def, Ideal.hostDivf_def, Ideal.ofBits_def, Ideal.mulf_def]
  rfl

/-- The normalised row: the input row over its root mean square, times the gain. -/
theorem v12_at (k : Fin 2048) :
    val_main_v12 (F := Ideal) x0 x2 (ix3 b s k)
      = BitFfn.normedR BitFfn.N1 (fun k => x0 (ix3 b s k)) (fun k => x2 (ix1 k)) k := by
  rw [val_main_v12_apply, val_main_v9_apply, val_main_v8_apply, idx8, v7_at, val_main_v11_apply, val_main_v10_apply, idx10]
  simp only [Ideal.mulf_def, Ideal.hostDivf_def]
  rfl

/-- The running maximum of the normalised row's magnitudes. -/
theorem v14_at :
    val_main_v14 (F := Ideal) x0 x2 (ix2 b s)
      = foldMax (BitFfn.bits 0xFF800000#32) (fun k => val_main_v13 (F := Ideal) x0 x2 (ix3 b s k)) := by
  unfold val_main_v14
  exact hostReduce_maximumf_lastAxis3_apply (val_main_v13 (F := Ideal) x0 x2) (val_main_cst_2 (F := Ideal))
    reducesTo_S4x2048x2048_S4x2048_d2 (by decide) h_S_ b s

/-- The normalised row's 8-bit scale, on the keepdims column. -/
theorem v18_at (u : Fin 1) :
    val_main_v18 (F := Ideal) x0 x2 (ix3 b s u)
      = BitFfn.rowScaleR (BitFfn.normedR BitFfn.N1 (fun k => x0 (ix3 b s k)) (fun k => x2 (ix1 k))) := by
  rw [val_main_v18_apply, val_main_v17_apply, val_main_cst_4_apply, val_main_v16_apply, val_main_call0_v1_apply,
    val_main_call0_v0_apply, val_main_cst_3_apply, val_main_v15_apply, idx15, v14_at]
  simp only [val_main_v13_apply, v12_at]
  simp only [Ideal.hostDivf_def, Ideal.maximumf_def, Ideal.ofBits_def, Ideal.hostAbsf_def, Ideal.absf_def]
  rfl

/-- The quantised row: the normalised row plus the difference of its 8-bit grid value and itself. -/
theorem v26_at (k : Fin 2048) :
    val_main_v26 (F := Ideal) x0 x2 (ix3 b s k)
      = BitFfn.quantR (BitFfn.normedR BitFfn.N1 (fun k => x0 (ix3 b s k)) (fun k => x2 (ix1 k))) k := by
  rw [val_main_v26_apply, val_main_v25_apply, val_main_v24_apply, val_main_v23_apply, idx23, val_main_v22_apply,
    val_main_call2_v4_apply, val_main_call2_v3_apply, val_main_c_5_apply, val_main_call2_v2_apply, val_main_call2_v1_apply,
    val_main_call2_v0_apply, val_main_c_apply, val_main_v21_apply, val_main_v20_apply, val_main_v19_apply, idx19, v18_at, v12_at]
  simp only [Ideal.addf_def, Ideal.subf_def, Ideal.hostDivf_def, Ideal.minimumf_def, Ideal.maximumf_def, Ideal.mulf_def,
    Ideal.hostUnary_roundeven_def]
  rfl

end Layer1

/-! ## A weight array: its mean magnitude, ternary scale and quantised entries -/

theorem v29_at (i : S_.Idx) : val_main_v29 (F := Ideal) x1 i = BitFfn.meanAbs x1 := by
  rw [val_main_v29_apply, val_main_v28_apply, val_main_cst_7_apply, val_main_cst_6_apply]
  simp only [val_main_v27_apply]
  simp only [Ideal.hostDivf_def, Ideal.ofBits_def, Ideal.hostAbsf_def, Ideal.absf_def]
  rfl

theorem v31_at (i : S_.Idx) : val_main_v31 (F := Ideal) x1 i = BitFfn.wScaleR (BitFfn.meanAbs x1) := by
  rw [val_main_v31_apply, val_main_cst_9_apply, val_main_v30_apply, val_main_call3_v0_apply, val_main_cst_8_apply, v29_at]
  simp only [Ideal.hostDivf_def, Ideal.ofBits_def, Ideal.maximumf_def]
  rfl

theorem v39_at (i : S8192x2048.Idx) :
    val_main_v39 (F := Ideal) x1 i = BitFfn.wQuantR (BitFfn.meanAbs x1) (x1 i) := by
  rw [val_main_v39_apply, val_main_v38_apply, val_main_v37_apply, val_main_v36_apply, val_main_v35_apply,
    val_main_call5_v4_apply, val_main_call5_v3_apply, val_main_c_11_apply, val_main_call5_v2_apply, val_main_call5_v1_apply,
    val_main_call5_v0_apply, val_main_c_10_apply, val_main_v34_apply, val_main_v33_apply, val_main_v32_apply, v31_at]
  simp only [Ideal.addf_def, Ideal.subf_def, Ideal.hostDivf_def, Ideal.minimumf_def, Ideal.maximumf_def, Ideal.mulf_def,
    Ideal.hostUnary_roundeven_def]
  rfl

theorem v72_at (i : S_.Idx) : val_main_v72 (F := Ideal) x3 i = BitFfn.meanAbs x3 := by
  rw [val_main_v72_apply, val_main_v71_apply, val_main_cst_21_apply, val_main_cst_20_apply]
  simp only [val_main_v70_apply]
  simp only [Ideal.hostDivf_def, Ideal.ofBits_def, Ideal.hostAbsf_def, Ideal.absf_def]
  rfl

theorem v74_at (i : S_.Idx) : val_main_v74 (F := Ideal) x3 i = BitFfn.wScaleR (BitFfn.meanAbs x3) := by
  rw [val_main_v74_apply, val_main_cst_23_apply, val_main_v73_apply, val_main_call10_v0_apply, val_main_cst_22_apply, v72_at]
  simp only [Ideal.hostDivf_def, Ideal.ofBits_def, Ideal.maximumf_def]
  rfl

theorem v82_at (i : S2048x8192.Idx) :
    val_main_v82 (F := Ideal) x3 i = BitFfn.wQuantR (BitFfn.meanAbs x3) (x3 i) := by
  rw [val_main_v82_apply, val_main_v81_apply, val_main_v80_apply, val_main_v79_apply, val_main_v78_apply,
    val_main_call12_v4_apply, val_main_call12_v3_apply, val_main_c_25_apply, val_main_call12_v2_apply, val_main_call12_v1_apply,
    val_main_call12_v0_apply, val_main_c_24_apply, val_main_v77_apply, val_main_v76_apply, val_main_v75_apply, v74_at]
  simp only [Ideal.addf_def, Ideal.subf_def, Ideal.hostDivf_def, Ideal.minimumf_def, Ideal.maximumf_def, Ideal.mulf_def,
    Ideal.hostUnary_roundeven_def]
  rfl

/-! ## The hidden value: the first layer's product through the squared rectifier -/

section Hidden
variable (b : Fin 4) (s : Fin 2048)

theorem v40_at (j : Fin 8192) :
    val_main_v40 (F := Ideal) x0 x1 x2 (ix3 b s j)
      = BitFfn.lin (BitFfn.quantR (BitFfn.normedR BitFfn.N1 (fun k => x0 (ix3 b s k)) (fun k => x2 (ix1 k))))
          (fun k => BitFfn.wQuantR (BitFfn.meanAbs x1) (x1 (ix2 j k))) := by
  rw [val_main_v40_apply]
  simp only [lidx40, ridx40, v26_at, v39_at]
  rfl

theorem v42_at (j : Fin 8192) :
    val_main_v42 (F := Ideal) x0 x1 x2 (ix3 b s j)
      = BitFfn.hidden (BitFfn.lin (BitFfn.quantR (BitFfn.normedR BitFfn.N1 (fun k => x0 (ix3 b s k)) (fun k => x2 (ix1 k))))
          (fun k => BitFfn.wQuantR (BitFfn.meanAbs x1) (x1 (ix2 j k)))) := by
  rw [val_main_v42_apply, val_main_v41_apply, val_main_call6_v0_apply, val_main_call6_cst_apply, v40_at]
  simp only [Ideal.mulf_def, Ideal.maximumf_def, Ideal.ofBits_def]
  rfl

/-- The second layer's row at `(b, s)`: the hidden values. -/
def hid : Fin 8192 → EReal := fun j => val_main_v42 (F := Ideal) x0 x1 x2 (ix3 b s j)

theorem hid_eq :
    hid x0 x1 x2 b s = fun j => BitFfn.hidden (BitFfn.lin
      (BitFfn.quantR (BitFfn.normedR BitFfn.N1 (fun k => x0 (ix3 b s k)) (fun k => x2 (ix1 k))))
      (fun k => BitFfn.wQuantR (BitFfn.meanAbs x1) (x1 (ix2 j k)))) :=
  funext fun j => v42_at x0 x1 x2 b s j

end Hidden

/-! ## The second layer's row: the same three stages over the hidden values -/

section Layer2
variable (b : Fin 4) (s : Fin 2048)

theorem v50_at (u : Fin 1) :
    val_main_v50 (F := Ideal) x0 x1 x2 (ix3 b s u) = Ideal.sqrt (BitFfn.meanSqR BitFfn.N2 (hid x0 x1 x2 b s)) := by
  rw [val_main_v50_apply, val_main_v49_apply, val_main_v47_apply, val_main_v45_apply, val_main_v46_apply, val_main_v48_apply,
    val_main_cst_13_apply, val_main_cst_14_apply, idx45, val_main_v44_apply, val_main_cst_12_apply]
  simp only [idx44, val_main_v43_apply]
  simp only [Ideal.hostUnary_sqrt_def, Ideal.addf_def, Ideal.hostDivf_def, Ideal.ofBits_def, Ideal.mulf_def]
  rfl

theorem v55_at (j : Fin 8192) :
    val_main_v55 (F := Ideal) x0 x1 x2 x4 (ix3 b s j)
      = BitFfn.normedR BitFfn.N2 (hid x0 x1 x2 b s) (fun j => x4 (ix1 j)) j := by
  rw [val_main_v55_apply, val_main_v52_apply, val_main_v51_apply, idx51, v50_at, val_main_v54_apply, val_main_v53_apply, idx53]
  simp only [Ideal.mulf_def, Ideal.hostDivf_def]
  rfl

theorem v57_at :
    val_main_v57 (F := Ideal) x0 x1 x2 x4 (ix2 b s)
      = foldMax (BitFfn.bits 0xFF800000#32) (fun j => val_main_v56 (F := Ideal) x0 x1 x2 x4 (ix3 b s j)) := by
  unfold val_main_v57
  exact hostReduce_maximumf_lastAxis3_apply (val_main_v56 (F := Ideal) x0 x1 x2 x4) (val_main_cst_15 (F := Ideal))
    reducesTo_S4x2048x8192_S4x2048_d2 (by decide) h_S_ b s

theorem v61_at (u : Fin 1) :
    val_main_v61 (F := Ideal) x0 x1 x2 x4 (ix3 b s u)
      = BitFfn.rowScaleR (BitFfn.normedR BitFfn.N2 (hid x0 x1 x2 b s) (fun j => x4 (ix1 j))) := by
  rw [val_main_v61_apply, val_main_v60_apply, val_main_cst_17_apply, val_main_v59_apply, val_main_call7_v1_apply,
    val_main_call7_v0_apply, val_main_cst_16_apply, val_main_v58_apply, idx58, v57_at]
  simp only [val_main_v56_apply, v55_at]
  simp only [Ideal.hostDivf_def, Ideal.maximumf_def, Ideal.ofBits_def, Ideal.hostAbsf_def, Ideal.absf_def]
  rfl

theorem v69_at (j : Fin 8192) :
    val_main_v69 (F := Ideal) x0 x1 x2 x4 (ix3 b s j)
      = BitFfn.quantR (BitFfn.normedR BitFfn.N2 (hid x0 x1 x2 b s) (fun j => x4 (ix1 j))) j := by
  rw [val_main_v69_apply, val_main_v68_apply, val_main_v67_apply, val_main_v66_apply, idx66, val_main_v65_apply,
    val_main_call9_v4_apply, val_main_call9_v3_apply, val_main_c_19_apply, val_main_call9_v2_apply, val_main_call9_v1_apply,
    val_main_call9_v0_apply, val_main_c_18_apply, val_main_v64_apply, val_main_v63_apply, val_main_v62_apply, idx62, v61_at, v55_at]
  simp only [Ideal.addf_def, Ideal.subf_def, Ideal.hostDivf_def, Ideal.minimumf_def, Ideal.maximumf_def, Ideal.mulf_def,
    Ideal.hostUnary_roundeven_def]
  rfl

end Layer2

/-! ## The output entry -/

/-- The reference's result at `(b, s, o)` is the second arrangement of the feed-forward block, applied to the input row
    `(b, s, ·)`, the two gains, the two weight arrays and their mean magnitudes, at output column `o`. -/
theorem val_main_v83_at (b : Fin 4) (s : Fin 2048) (o : Fin 2048) :
    val_main_v83 (F := Ideal) x0 x1 x2 x3 x4 (ix3 b s o)
      = BitFfn.ffnR (fun k => x0 (ix3 b s k)) (fun k => x2 (ix1 k)) (fun j k => x1 (ix2 j k)) (BitFfn.meanAbs x1)
          (fun k => x4 (ix1 k)) (fun j k => x3 (ix2 j k)) (BitFfn.meanAbs x3) o := by
  rw [val_main_v83_apply]
  simp only [lidx83, ridx83, v69_at, v82_at]
  rw [hid_eq]
  rfl

end Cert.RefRead

end
-- ==== Proof.RefValue.lean ====
/-
  The idealized reference's result, entry by entry, as the second arrangement of the feed-forward block.

  The reference is one line of 140 host operations; its run ends with the result buffer at the fold of those operations
  over the launch contents. The fold at the result buffer is the last stage of the program read one operation at a time,
  a function of the five argument arrays, and that stage at (b, s, o) is `ffnR` at the activation row (b, s).
-/
import proofs.«151628_j58102317580688_1_alg».proof.Proof.RefReadP
import proofs.«151628_j58102317580688_1_alg».proof.Proof.RefRead

set_option maxRecDepth 16384

noncomputable section

namespace Cert.ReferenceIdeal.ValueV

open Cert.ReferenceIdeal Cert.ReferenceIdeal.Gen Idealize.ShloMosaic Idealize.ShloMosaic.TcCoe Idealize.SL.Sem Idealize.ShloMosaic.StableHlo
open Idealize.ShloMosaic.ValueIdx Cert.BitFfn

set_option maxHeartbeats 4000000 in
/-- The fold of the program's operations, at the result buffer, is the program's last stage of the argument arrays: each
    operation's result is read at its own buffer and passed over at every other, and the transports the outlined
    functions' operations put around their operands and results (casts along equations that hold by computation) are
    removed as they appear, while the terms they wrap are still small. -/
theorem fold_eq (m : (ℓ : Loc nD τ sig) → Buf (Elt Ideal) ℓ) (c : Dev nD) :
    after (Cert.ReferenceIdeal.ValueP.ops (F := Ideal)) (launchContents m c) (Proc.devRef .tc main_v83)
      = Cert.ReferenceIdeal.ReadP.val_main_v83 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', TRef.ofBuf, TRef.toBuf, cast_eq]
  rfl

/-- The result at (b, s, o). -/
theorem result_apply (m : (ℓ : Loc nD τ sig) → Buf (Elt Ideal) ℓ) (c : Dev nD) (b : Fin 4) (s : Fin 2048) (o : Fin 2048) :
    (after (Cert.ReferenceIdeal.ValueP.ops (F := Ideal)) (launchContents m c) (Proc.devRef .tc main_v83) : S4x2048x2048.Idx → EReal) (ix3 b s o)
      = ffnR (fun k => (m ((c.tc : Thread nD τ).loc main_arg0) : S4x2048x2048.Idx → EReal) (ix3 b s k))
          (fun k => (m ((c.tc : Thread nD τ).loc main_arg2) : S2048.Idx → EReal) (ix1 k))
          (fun j k => (m ((c.tc : Thread nD τ).loc main_arg1) : S8192x2048.Idx → EReal) (ix2 j k))
          (meanAbs (m ((c.tc : Thread nD τ).loc main_arg1) : S8192x2048.Idx → EReal))
          (fun k => (m ((c.tc : Thread nD τ).loc main_arg4) : S8192.Idx → EReal) (ix1 k))
          (fun j k => (m ((c.tc : Thread nD τ).loc main_arg3) : S2048x8192.Idx → EReal) (ix2 j k))
          (meanAbs (m ((c.tc : Thread nD τ).loc main_arg3) : S2048x8192.Idx → EReal)) o := by
  rw [fold_eq m c]
  exact Cert.RefRead.val_main_v83_at _ _ _ _ _ b s o

end Cert.ReferenceIdeal.ValueV

end
-- ==== Proof.LibRealEntries.lean ====
/-
  Real entries among the extended reals, and the law they are needed for.

  An extended real is REAL when it is the image of a real number (neither infinity). Sums, products, differences,
  maxima and finite sums of reals are real, so a value computed from real inputs by those operations is real without
  looking at how it was computed. That matters because the extended reals are not a ring: distributivity and
  cancellation fail at the infinities (⊤ + ⊥ = ⊥, 0 · ⊤ = 0), and an algebraic identity between two arrangements of
  one computation, true on the reals by `ring`, holds on the extended reals only where the entries are real.

  The law stated here is the folding of an evaluation-mode normalisation: with scale γ, shift β, mean μ and reciprocal
  deviation s, the plain form ((r − μ)·s)·γ + β and the folded multiply-add r·(γ·s) + (β − μ·(γ·s)) agree on real
  entries (both are the affine function r ↦ r·γ·s + β − μ·γ·s).
-/
import Idealize.ShloMosaic.PureOps.Ideal

noncomputable section

namespace Cert.LibRealEntries

open Finset

/-- An extended real that is a real number. -/
def IsReal (x : EReal) : Prop := ∃ r : ℝ, x = (r : EReal)

theorem IsReal.coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  obtain ⟨a, rfl⟩ := hx; obtain ⟨b, rfl⟩ := hy
  rcases le_total a b with h | h
  · exact ⟨b, max_eq_right (EReal.coe_le_coe_iff.2 h)⟩
  · exact ⟨a, max_eq_left (EReal.coe_le_coe_iff.2 h)⟩

/-- A finite sum of reals is a real. -/
theorem IsReal.sum {ι : Type*} (s : Finset ι) (f : ι → EReal) (h : ∀ i ∈ s, IsReal (f i)) : IsReal (∑ i ∈ s, f i) :=
  Finset.sum_induction f IsReal (fun _ _ => IsReal.add) isReal_zero h

/-- The folded and the plain normalisation of one real entry agree: both are the affine function
    r ↦ r·γ·s + β − μ·γ·s. -/
theorem folded_eq_plain {r γ β μ s : EReal} (hr : IsReal r) (hγ : IsReal γ) (hβ : IsReal β) (hμ : IsReal μ) (hs : IsReal s) :
    r * (γ * s) + (β - μ * (γ * s)) = (r - μ) * s * γ + β := by
  obtain ⟨r, rfl⟩ := hr; obtain ⟨γ, rfl⟩ := hγ; obtain ⟨β, rfl⟩ := hβ; obtain ⟨μ, rfl⟩ := hμ; obtain ⟨s, rfl⟩ := hs
  simp only [← EReal.coe_mul, ← EReal.coe_sub, ← EReal.coe_add]
  congr 1
  ring

end Cert.LibRealEntries

end
-- ==== Proof.LibERealScale.lean ====
/-
  Scaling by a nonnegative finite factor on the extended reals, and two quantities that are such factors.

  On the extended reals multiplication does not distribute over addition in general (the sum of +∞ and −∞ is −∞, and
  a negative or infinite factor turns that around), but it does for a factor `x` with `0 ≤ x` and `x ≠ ⊤`: a
  nonnegative real. So a finite sum times such a factor is the sum of the products, whatever the summands are.
  The reciprocal square root of a positive extended real is such a factor (a positive real, or `0` at `+∞`), and so
  is a value that is either that or `0`. A quotient by a nonzero divisor is the product with the divisor's reciprocal.
-/
import Idealize.ShloMosaic.PureOps.Ideal
import Idealize.ShloMosaic.PureOps.Ideal.Laws

namespace Cert.LibERealScale

open Idealize.ShloMosaic

/-- A finite sum times a nonnegative finite factor is the sum of the products. -/
theorem sum_mul_of_nonneg_ne_top {ι : Type} (s : Finset ι) (f : ι → EReal) {x : EReal} (h0 : 0 ≤ x) (ht : x ≠ ⊤) :
    (∑ j ∈ s, f j) * x = ∑ j ∈ s, f j * x := by
  classical
  induction s using Finset.induction_on with
  | empty => rw [Finset.sum_empty, Finset.sum_empty, zero_mul]
  | insert a s ha ih =>
    rw [Finset.sum_insert ha, Finset.sum_insert ha, EReal.right_distrib_of_nonneg_of_ne_top h0 ht, ih]

/-- The f32 word of `1.0` denotes `1`. -/
theorem ofBits_one_f32 : Ideal.ofBits .f32 0x3F800000#32 = 1 := by
  simp [Ideal.ofBits, Ideal.ieee]
  rw [← EReal.coe_mul, ← EReal.coe_one]
  exact congrArg _ (by norm_num)

/-- The larger of anything and `1` is positive. -/
theorem max_one_pos (d : EReal) : 0 < max d (Ideal.ofBits .f32 0x3F800000#32) := by
  rw [ofBits_one_f32]
  exact lt_of_lt_of_le zero_lt_one (le_max_right d 1)

/-- The reciprocal square root of a positive extended real is a nonnegative finite number. -/
theorem rsqrt_nonneg_ne_top {y : EReal} (hy : 0 < y) : 0 ≤ Ideal.rsqrt y ∧ Ideal.rsqrt y ≠ ⊤ := by
  induction y using EReal.rec with
  | bot => exact absurd hy (not_lt.mpr bot_le)
  | top => rw [Ideal.rsqrt_top]; exact ⟨le_rfl, EReal.zero_ne_top⟩
  | coe r =>
    have hr : 0 < r := by exact_mod_cast hy
    rw [Ideal.rsqrt_coe, if_neg (not_lt.mpr hr.le), if_neg hr.ne']
    exact ⟨by exact_mod_cast inv_nonneg.mpr (Real.sqrt_nonneg r), EReal.coe_ne_top _⟩

/-- A value that is the reciprocal square root of `max d 1` where a flag is set and `0` elsewhere is a
    nonnegative finite number, whatever `d` and the flag are. -/
theorem select_rsqrt_nonneg_ne_top (b : BitVec 1) (d : EReal) :
    0 ≤ Scalar.select b (Ideal.rsqrt (max d (Ideal.ofBits .f32 0x3F800000#32))) (Ideal.ofBits .f32 0x00000000#32)
      ∧ Scalar.select b (Ideal.rsqrt (max d (Ideal.ofBits .f32 0x3F800000#32))) (Ideal.ofBits .f32 0x00000000#32) ≠ ⊤ := by
  unfold Scalar.select
  split
  · exact rsqrt_nonneg_ne_top (max_one_pos d)
  · rw [Ideal.ofBits_zero_f32]; exact ⟨le_rfl, EReal.zero_ne_top⟩

/-- A quotient by a nonzero divisor is the product with the divisor's reciprocal `1 / y`. -/
theorem div_eq_mul_one_div (x : EReal) {y : EReal} (hy : y ≠ 0) : Ideal.div x y = x * Ideal.div 1 y := by
  unfold Ideal.div
  rw [if_neg hy, if_neg hy, one_mul]

end Cert.LibERealScale
-- ==== Proof.Bridge.lean ====
/-
  The two arrangements of the feed-forward block agree on real inputs.

  On the extended reals the second arrangement's `x / √m` is the first's `x · (1/√m)` once the mean square `m` is a
  positive real (it is: a sum of squares of reals over a positive real, plus a positive epsilon), and its
  `y + (q − y)` is `q` once `y` is real. The integer clip bounds are the float ones. Every intermediate row stays
  real — a clipped value is a real whatever was clipped, a scale is a positive real because its divisor is held above a
  positive epsilon — so the second layer meets the same conditions as the first.
-/
import Idealize.ShloMosaic.PureOps.Ideal
import Idealize.ShloMosaic.PureOps.Ideal.Laws
import proofs.«151628_j58102317580688_1_alg».proof.Proof.Spec
import proofs.«151628_j58102317580688_1_alg».proof.Proof.LibRealEntries
import proofs.«151628_j58102317580688_1_alg».proof.Proof.LibERealScale
import proofs.«151628_j58102317580688_1_alg».proof.Proof.LibMaxReduce

noncomputable section

namespace Cert.BitFfn

open Idealize.ShloMosaic Cert.LibMaxReduce Cert.LibRealEntries Cert.LibERealScale

variable {K : ℕ}

/-! ## Positive reals, and the operations that keep a value real -/

/-- An extended real that is a positive real number. -/
def PosReal (x : EReal) : Prop := ∃ r : ℝ, 0 < r ∧ x = (r : EReal)

theorem PosReal.isReal {x : EReal} (h : PosReal x) : IsReal x := by
  obtain ⟨r, _, e⟩ := h; exact ⟨r, e⟩

theorem isReal_neg {x : EReal} (hx : IsReal x) : IsReal (-x) := by
  obtain ⟨r, rfl⟩ := hx; exact ⟨-r, (EReal.coe_neg r).symm⟩

theorem isReal_min {x y : EReal} (hx : IsReal x) (hy : IsReal y) : IsReal (min x y) := by
  obtain ⟨a, rfl⟩ := hx; obtain ⟨b, rfl⟩ := hy
  rcases le_total a b with h | h
  · exact ⟨a, min_eq_left (EReal.coe_le_coe_iff.2 h)⟩
  · exact ⟨b, min_eq_right (EReal.coe_le_coe_iff.2 h)⟩

/-- A quotient by a positive real is the product with its reciprocal, whatever the dividend. -/
theorem div_posReal (a : EReal) {d : ℝ} (hd : 0 < d) : Ideal.div a (d : EReal) = a * ((d⁻¹ : ℝ) : EReal) := by
  rw [Ideal.div_coe hd.ne', one_div]

theorem isReal_div {a s : EReal} (ha : IsReal a) (hs : PosReal s) : IsReal (Ideal.div a s) := by
  obtain ⟨d, hd, rfl⟩ := hs
  rw [div_posReal _ hd]
  exact ha.mul ⟨_, rfl⟩

theorem posReal_div {a s : EReal} (ha : PosReal a) (hs : PosReal s) : PosReal (Ideal.div a s) := by
  obtain ⟨d, hd, rfl⟩ := hs
  obtain ⟨c, hc, rfl⟩ := ha
  rw [div_posReal _ hd, ← EReal.coe_mul]
  exact ⟨_, mul_pos hc (inv_pos.2 hd), rfl⟩

/-- A real plus the difference of anything and that real is that anything: at the infinities too. -/
theorem add_sub_cancel_real {a : EReal} (ha : IsReal a) (b : EReal) : a + (b - a) = b := by
  obtain ⟨r, rfl⟩ := ha
  induction b using EReal.rec with
  | bot => simp
  | top => simp
  | coe s => rw [← EReal.coe_sub, ← EReal.coe_add]; exact congrArg _ (by ring)

/-- A value clipped between two reals is a real, whatever it was. -/
theorem clip_real (lo hi : ℝ) (t : EReal) : IsReal (min (hi : EReal) (max (lo : EReal) t)) := by
  induction t using EReal.rec with
  | bot => rw [max_bot_right]; exact isReal_min ⟨hi, rfl⟩ ⟨lo, rfl⟩
  | top => rw [max_top_right, min_top_right]; exact ⟨hi, rfl⟩
  | coe r => exact isReal_min ⟨hi, rfl⟩ (IsReal.max ⟨lo, rfl⟩ ⟨r, rfl⟩)

/-- The larger of a value that is `⊥` or real and a positive real is a positive real. -/
theorem max_eps_posReal {s : EReal} (hs : s = ⊥ ∨ IsReal s) {e : EReal} (he : PosReal e) : PosReal (max s e) := by
  obtain ⟨e, he, rfl⟩ := he
  rcases hs with rfl | ⟨r, rfl⟩
  · rw [max_bot_left]; exact ⟨e, he, rfl⟩
  · rcases le_total r e with h | h
    · exact ⟨e, he, max_eq_right (EReal.coe_le_coe_iff.2 h)⟩
    · exact ⟨r, lt_of_lt_of_le he h, max_eq_left (EReal.coe_le_coe_iff.2 h)⟩

/-- A running maximum of reals from a start that is `⊥` or real is `⊥` or real. -/
theorem foldMax_bot_or_real {s : EReal} (hs : s = ⊥ ∨ IsReal s) {x : Fin K → EReal} (hx : ∀ k, IsReal (x k)) :
    foldMax s x = ⊥ ∨ IsReal (foldMax s x) := by
  unfold foldMax
  induction (Finset.univ : Finset (Fin K)) using Finset.induction_on with
  | empty => rw [Finset.fold_empty]; exact hs
  | insert a t ha ih =>
    rw [Finset.fold_insert ha]
    rcases ih with h | h
    · rw [h, max_bot_right]; exact Or.inr (hx a)
    · exact Or.inr (IsReal.max (hx a) h)

/-! ## The literal words -/

theorem bits_zero : bits 0x00000000#32 = 0 := Ideal.ofBits_zero_f32
theorem bits_one : bits 0x3F800000#32 = ((1 : ℝ) : EReal) := ofBits_one_f32
theorem bits_negone : bits 0xBF800000#32 = ((-1 : ℝ) : EReal) := by
  simp [Ideal.ofBits, Ideal.ieee, -EReal.coe_mul]; norm_num
theorem bits_127 : bits 0x42FE0000#32 = ((127 : ℝ) : EReal) := by
  simp [Ideal.ofBits, Ideal.ieee, -EReal.coe_mul]; norm_num
theorem bits_m128 : bits 0xC3000000#32 = ((-128 : ℝ) : EReal) := by
  simp [Ideal.ofBits, Ideal.ieee, -EReal.coe_mul]; norm_num
theorem bits_neginf : bits 0xFF800000#32 = ⊥ := by
  simp [Ideal.ofBits, Ideal.ieee]

/-- The integer clip bounds are the float ones. -/
theorem icst_one : icst 1#32 = bits 0x3F800000#32 := by
  rw [bits_one]; simp [icst]
theorem icst_negone : icst 4294967295#32 = bits 0xBF800000#32 := by
  have h : (4294967295#32 : BitVec 32).toInt = -1 := by decide
  rw [bits_negone]; simp [icst, h]
theorem icst_127 : icst 127#32 = bits 0x42FE0000#32 := by
  have h : (127#32 : BitVec 32).toInt = 127 := by decide
  rw [bits_127]; simp [icst, h]
theorem icst_m128 : icst 4294967168#32 = bits 0xC3000000#32 := by
  have h : (4294967168#32 : BitVec 32).toInt = -128 := by decide
  rw [bits_m128]; simp [icst, h]

/-- The two epsilons and the two row lengths are positive reals. -/
theorem eps_norm_pos : PosReal (bits 0x358637BD#32) := by
  unfold PosReal; simp [Ideal.ofBits, Ideal.ieee, -EReal.coe_mul]
theorem eps_scale_pos : PosReal (bits 0x3727C5AC#32) := by
  unfold PosReal; simp [Ideal.ofBits, Ideal.ieee, -EReal.coe_mul]
theorem N1_pos : PosReal N1 := by
  unfold PosReal; simp [Ideal.ofBits, Ideal.ieee, -EReal.coe_mul]
theorem N2_pos : PosReal N2 := by
  unfold PosReal; simp [Ideal.ofBits, Ideal.ieee, -EReal.coe_mul]

/-! ## The norm -/

theorem meanSqR_eq (n : EReal) (x : Fin K → EReal) : meanSqR n x = meanSq n x := by
  unfold meanSqR meanSq; rw [bits_zero, zero_add]

/-- A sum of squares of reals is a nonnegative real. -/
theorem sumsq_nonneg_real {x : Fin K → EReal} (hx : ∀ k, IsReal (x k)) :
    ∃ s : ℝ, 0 ≤ s ∧ ∑ k, x k * x k = (s : EReal) := by
  obtain ⟨s, hs⟩ := IsReal.sum Finset.univ (fun k => x k * x k) (fun k _ => (hx k).mul (hx k))
  refine ⟨s, ?_, hs⟩
  have h0 : (0 : EReal) ≤ ∑ k, x k * x k := Finset.sum_nonneg fun k _ => by
    obtain ⟨r, hr⟩ := hx k
    rw [hr, ← EReal.coe_mul]
    exact EReal.coe_nonneg.2 (mul_self_nonneg r)
  rw [hs] at h0
  exact EReal.coe_nonneg.1 h0

/-- The mean square of a real row over a positive real length is a positive real. -/
theorem meanSq_pos {n : EReal} (hn : PosReal n) {x : Fin K → EReal} (hx : ∀ k, IsReal (x k)) : PosReal (meanSq n x) := by
  obtain ⟨d, hd, rfl⟩ := hn
  obtain ⟨s, hs, es⟩ := sumsq_nonneg_real hx
  obtain ⟨e, he, ee⟩ := eps_norm_pos
  unfold meanSq
  rw [es, ee, div_posReal _ hd, ← EReal.coe_mul, ← EReal.coe_add]
  exact ⟨_, add_pos_of_nonneg_of_pos (mul_nonneg hs (inv_nonneg.2 hd.le)) he, rfl⟩

/-- Over the square root of a positive real is times its reciprocal square root, whatever the dividend. -/
theorem div_sqrt_eq_mul_rsqrt (a : EReal) {m : EReal} (hm : PosReal m) :
    Ideal.div a (Ideal.sqrt m) = a * Ideal.rsqrt m := by
  obtain ⟨r, hr, rfl⟩ := hm
  rw [Ideal.sqrt_coe, if_neg (not_lt.2 hr.le), Ideal.rsqrt_coe, if_neg (not_lt.2 hr.le), if_neg hr.ne',
    div_posReal _ (Real.sqrt_pos.2 hr)]

theorem rsqrt_posReal {m : EReal} (hm : PosReal m) : PosReal (Ideal.rsqrt m) := by
  obtain ⟨r, hr, rfl⟩ := hm
  rw [Ideal.rsqrt_coe, if_neg (not_lt.2 hr.le), if_neg hr.ne']
  exact ⟨_, inv_pos.2 (Real.sqrt_pos.2 hr), rfl⟩

theorem normedR_eq {n : EReal} (hn : PosReal n) {x : Fin K → EReal} (hx : ∀ k, IsReal (x k)) (g : Fin K → EReal) :
    normedR n x g = normed n x g := by
  funext k
  unfold normedR normed
  rw [meanSqR_eq, div_sqrt_eq_mul_rsqrt _ (meanSq_pos hn hx)]

theorem normed_real {n : EReal} (hn : PosReal n) {x g : Fin K → EReal} (hx : ∀ k, IsReal (x k))
    (hg : ∀ k, IsReal (g k)) (k : Fin K) : IsReal (normed n x g k) := by
  unfold normed
  exact ((hx k).mul (rsqrt_posReal (meanSq_pos hn hx)).isReal).mul (hg k)

/-! ## The 8-bit grid of a row -/

theorem rowScaleR_eq (y : Fin K → EReal) : rowScaleR y = rowScale y := by
  unfold rowScaleR rowScale
  exact congrArg (Ideal.div _) (max_comm _ _)

/-- The scale of a real row is a positive real: its divisor is held above a positive epsilon. -/
theorem rowScale_pos {y : Fin K → EReal} (hy : ∀ k, IsReal (y k)) : PosReal (rowScale y) := by
  unfold rowScale
  rw [bits_127, bits_neginf]
  exact posReal_div ⟨127, by norm_num, rfl⟩
    (max_eps_posReal (foldMax_bot_or_real (Or.inl rfl) fun k => IsReal.max (hy k) (isReal_neg (hy k))) eps_scale_pos)

theorem quant_real {y : Fin K → EReal} (hy : ∀ k, IsReal (y k)) (k : Fin K) : IsReal (quant y k) := by
  unfold quant
  rw [bits_127, bits_m128]
  exact isReal_div (clip_real _ _ _) (rowScale_pos hy)

theorem quantR_eq {y : Fin K → EReal} (hy : ∀ k, IsReal (y k)) : quantR y = quant y := by
  funext k
  unfold quantR quant
  rw [rowScaleR_eq, icst_127, icst_m128]
  exact add_sub_cancel_real (hy k) _

/-! ## The ternary grid of the weights -/

theorem wScaleR_eq (m : EReal) : wScaleR m = wScale m := by
  unfold wScaleR wScale
  exact congrArg (Ideal.div _) (max_comm _ _)

theorem wScale_pos {m : EReal} (hm : IsReal m) : PosReal (wScale m) := by
  unfold wScale
  rw [bits_one]
  exact posReal_div ⟨1, one_pos, rfl⟩ (max_eps_posReal (Or.inr hm) eps_scale_pos)

theorem wQuant_real {m : EReal} (hm : IsReal m) (v : EReal) : IsReal (wQuant m v) := by
  unfold wQuant
  rw [bits_one, bits_negone]
  exact isReal_div (clip_real _ _ _) (wScale_pos hm)

theorem wQuantR_eq (m : EReal) {v : EReal} (hv : IsReal v) : wQuantR m v = wQuant m v := by
  unfold wQuantR wQuant
  rw [wScaleR_eq, icst_one, icst_negone]
  exact add_sub_cancel_real hv _

/-! ## Products, the rectifier, and one layer -/

theorem lin_real {y w : Fin K → EReal} (hy : ∀ k, IsReal (y k)) (hw : ∀ k, IsReal (w k)) : IsReal (lin y w) := by
  unfold lin
  exact IsReal.sum _ _ fun k _ => (hy k).mul (hw k)

theorem hidden_real {t : EReal} (ht : IsReal t) : IsReal (hidden t) := by
  unfold hidden
  rw [bits_zero]
  exact (ht.max isReal_zero).mul (ht.max isReal_zero)

/-- One layer in the two arrangements: a real row under a real gain against a real weight row. -/
theorem layer_eq {n : EReal} (hn : PosReal n) {x g w : Fin K → EReal} (hx : ∀ k, IsReal (x k))
    (hg : ∀ k, IsReal (g k)) (hw : ∀ k, IsReal (w k)) (m : EReal) :
    lin (quantR (normedR n x g)) (fun k => wQuantR m (w k)) = lin (quant (normed n x g)) (fun k => wQuant m (w k)) := by
  rw [normedR_eq hn hx, quantR_eq (normed_real hn hx hg)]
  exact congrArg (lin _) (funext fun k => wQuantR_eq m (hw k))

/-- One layer's value is real. -/
theorem layer_real {n : EReal} (hn : PosReal n) {x g : Fin K → EReal} (w : Fin K → EReal) (hx : ∀ k, IsReal (x k))
    (hg : ∀ k, IsReal (g k)) {m : EReal} (hm : IsReal m) :
    IsReal (lin (quant (normed n x g)) (fun k => wQuant m (w k))) :=
  lin_real (quant_real (normed_real hn hx hg)) (fun k => wQuant_real hm (w k))

/-! ## The whole block -/

/-- On real inputs the two arrangements of the block give one value. -/
theorem ffnR_eq_ffnK (x g1 : Fin 2048 → EReal) (w1 : Fin 8192 → Fin 2048 → EReal) (m1 : EReal)
    (g2 : Fin 8192 → EReal) (w2 : Fin 2048 → Fin 8192 → EReal) (m2 : EReal) (o : Fin 2048)
    (hx : ∀ k, IsReal (x k)) (hg1 : ∀ k, IsReal (g1 k)) (hw1 : ∀ j k, IsReal (w1 j k)) (hm1 : IsReal m1)
    (hg2 : ∀ k, IsReal (g2 k)) (hw2 : ∀ j k, IsReal (w2 j k)) (hm2 : IsReal m2) :
    ffnR x g1 w1 m1 g2 w2 m2 o = ffnK x g1 w1 m1 g2 w2 m2 o := by
  unfold ffnR ffnK
  have h1 : (fun j => hidden (lin (quantR (normedR N1 x g1)) (fun k => wQuantR m1 (w1 j k))))
      = (fun j => hidden (lin (quant (normed N1 x g1)) (fun k => wQuant m1 (w1 j k)))) :=
    funext fun j => congrArg hidden (layer_eq N1_pos hx hg1 (hw1 j) m1)
  rw [h1]
  exact layer_eq N2_pos (fun j => hidden_real (layer_real N1_pos (w1 j) hx hg1 hm1)) hg2 (hw2 o) m2

end Cert.BitFfn

end
-- ==== Proof.LibFinitePre.lean ====
/-
  Reading a printed precondition's tests "every entry is finite" and "every entry is nonnegative", at the ideal values.

  A precondition that says `jnp.all(|x| < inf)` of an array prints as a reduction by `and`, over all axes, of the
  comparison of |x| with the +∞ constant spread over the array's shape; it holds when the reduction's one result is 1.
  A reduction by `and` that is 1 had a 1 at every entry, so at every entry |x| = max(x, −x) is below the top of the
  extended reals, which excludes both infinities: the entry is a real number. The test `jnp.all(x >= 0)` reads the same
  way, through the order's comparison with the zero constant. Each lemma takes the test in the form it is printed in,
  for any shape and any reduced axes, so a precondition's conjunction is read one test at a time.
-/
import Idealize.ShloMosaic.Lib.ReduceAll
import Idealize.ShloMosaic.Lib.Pipeline.Value
import Idealize.ShloMosaic.Lib.ValueIdx
import Idealize.ShloMosaic.PureOps.Ideal.Laws
import proofs.«151628_j58102317580688_1_alg».proof.Proof.LibRealEntries

noncomputable section

namespace Cert.LibFinitePre

open Idealize.ShloMosaic Idealize.ShloMosaic.ValueIdx Cert.LibRealEntries

/-- The rank-0 shape has one index. -/
instance : Subsingleton (⟨0, ![]⟩ : Shape).Idx := ⟨fun a b => funext fun d => d.elim0⟩

/-- The f32 +∞ pattern is the top of the extended reals. -/
theorem inf_word : Ideal.ofBits .f32 0x7F800000#32 = ⊤ := by
  simp [Ideal.ofBits, Ideal.ieee]

theorem ofBool_eq_one (b : Bool) : BitVec.ofBool b = 1#1 ↔ b = true := by cases b <;> decide

/-- |x| < +∞ on the extended reals: x is a real. -/
theorem isReal_of_abs_lt_top (x : EReal) (h : Ideal.cmp .olt (max x (-x)) ⊤ = 1#1) : IsReal x := by
  have h' : max x (-x) < ⊤ := of_decide_eq_true ((ofBool_eq_one _).1 h)
  induction x using EReal.rec with
  | bot => exact absurd h' (by simp)
  | coe r => exact ⟨r, rfl⟩
  | top => exact absurd h' (by simp)

/-- x ≥ 0 on the extended reals is the order's. -/
theorem nonneg_of_cmp (x : EReal) (h : Ideal.cmp .oge x 0 = 1#1) : 0 ≤ x :=
  of_decide_eq_true ((ofBool_eq_one _).1 h)

/-- A test "every |entry| < +∞" that holds says every entry is a real. -/
theorem all_real {s : Shape} {axes : List (Fin s.rank)} (a : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .olt (Host.absf a) (broadcastInDim s ![] hb (constant (F := Ideal) ⟨0, ![]⟩ .f32 0x7F800000#32)))
      (constantI ⟨0, ![]⟩ 1 1#1) hr hu ix0 = 1#1) (i : s.Idx) : IsReal (a i) := by
  have h := Host.reduce_andi_all _ _ hr hu ix0 e i
  have hb' : broadcastInDim s ![] hb (constant (F := Ideal) ⟨0, ![]⟩ .f32 0x7F800000#32) i = ⊤ :=
    (broadcastInDim_apply ![] hb _ i ix0 (fun a => a.elim0)).trans inf_word
  refine isReal_of_abs_lt_top (a i) ?_
  have h2 : Ideal.cmp .olt (max (a i) (-(a i))) (broadcastInDim s ![] hb (constant (F := Ideal) ⟨0, ![]⟩ .f32 0x7F800000#32) i) = 1#1 := h
  rwa [hb'] at h2

/-- A test "every entry ≥ 0" that holds says every entry is nonnegative. -/
theorem all_nonneg {s : Shape} {axes : List (Fin s.rank)} (a : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .oge a (broadcastInDim s ![] hb (constant (F := Ideal) ⟨0, ![]⟩ .f32 0x00000000#32)))
      (constantI ⟨0, ![]⟩ 1 1#1) hr hu ix0 = 1#1) (i : s.Idx) : 0 ≤ a i := by
  have h := Host.reduce_andi_all _ _ hr hu ix0 e i
  have hb' : broadcastInDim s ![] hb (constant (F := Ideal) ⟨0, ![]⟩ .f32 0x00000000#32) i = 0 :=
    (broadcastInDim_apply ![] hb _ i ix0 (fun a => a.elim0)).trans Ideal.ofBits_zero_f32
  refine nonneg_of_cmp (a i) ?_
  have h2 : Ideal.cmp .oge (a i) (broadcastInDim s ![] hb (constant (F := Ideal) ⟨0, ![]⟩ .f32 0x00000000#32) i) = 1#1 := h
  rwa [hb'] at h2

end Cert.LibFinitePre

end
-- ==== Proof.PreReal.lean ====
/-
  Real entries from the precondition, and the mean magnitude of a real array.

  The precondition is a conjunction of five tests, one per input array, each saying that every entry's magnitude is
  below +∞. A conjunction of one-bit words that is 1 has every conjunct 1, and a test of that form that holds says
  every entry of its array is a real number. The mean magnitude of an array of reals is a finite sum of reals over
  the positive real 2²⁴, hence a real.
-/
import proofs.«151628_j58102317580688_1_alg».proof.Pre_finite_inputs
import proofs.«151628_j58102317580688_1_alg».proof.Proof.Gen.Pre_finite_inputs
import proofs.«151628_j58102317580688_1_alg».proof.Proof.LibFinitePre
import proofs.«151628_j58102317580688_1_alg».proof.Proof.LibRealEntries
import proofs.«151628_j58102317580688_1_alg».proof.Proof.Spec
import proofs.«151628_j58102317580688_1_alg».proof.Proof.Bridge

noncomputable section

namespace Cert.PreReal

open Idealize.ShloMosaic Idealize.ShloMosaic.ValueIdx Cert.LibRealEntries Cert.LibFinitePre Cert.Pre_finite_inputs

/-- Under the precondition every entry of each of the five arrays is a real. -/
theorem args_real [Cert.Pre_finite_inputs.Facts] (x0 : FVec Ideal S4x2048x2048 .f32) (x1 : FVec Ideal S8192x2048 .f32)
    (x2 : FVec Ideal S2048 .f32) (x3 : FVec Ideal S2048x8192 .f32) (x4 : FVec Ideal S8192 .f32)
    (h : Cert.Pre_finite_inputs.fn (F := Ideal) x0 x1 x2 x3 x4 = (fun _ => 1#1)) :
    (∀ i, IsReal (x0 i)) ∧ (∀ i, IsReal (x1 i)) ∧ (∀ i, IsReal (x2 i)) ∧ (∀ i, IsReal (x3 i)) ∧ (∀ i, IsReal (x4 i)) := by
  have h0 := congrFun h ix0
  unfold Cert.Pre_finite_inputs.fn Cert.Pre_finite_inputs.fn_part1 at h0
  dsimp only at h0
  -- the conjunction of the five tests, read at the one index of the result
  have h0' : IntOp.andi (IntOp.andi (IntOp.andi (IntOp.andi _ _) _) _) _ = 1#1 := h0
  obtain ⟨h0123, e4⟩ := IntOp.andi_eq_one.1 h0'
  obtain ⟨h012, e3⟩ := IntOp.andi_eq_one.1 h0123
  obtain ⟨h01, e2⟩ := IntOp.andi_eq_one.1 h012
  obtain ⟨e0, e1⟩ := IntOp.andi_eq_one.1 h01
  exact ⟨all_real x0 _ _ _ e0, all_real x1 _ _ _ e1, all_real x2 _ _ _ e2, all_real x3 _ _ _ e3, all_real x4 _ _ _ e4⟩

/-- The divisor of the mean magnitude, 2²⁴, is a positive real. -/
theorem two24_pos : Cert.BitFfn.PosReal (Cert.BitFfn.bits 0x4B800000#32) := by
  unfold Cert.BitFfn.PosReal; simp [Ideal.ofBits, Ideal.ieee, -EReal.coe_mul]

/-- The mean magnitude of an array of reals is a real. -/
theorem meanAbs_real {ι : Type} [Fintype ι] (w : ι → EReal) (h : ∀ i, IsReal (w i)) : IsReal (Cert.BitFfn.meanAbs w) := by
  unfold Cert.BitFfn.meanAbs
  rw [Cert.BitFfn.bits_zero, zero_add]
  exact Cert.BitFfn.isReal_div (IsReal.sum _ _ fun i _ => (h i).max (Cert.BitFfn.isReal_neg (h i))) two24_pos

end Cert.PreReal

end
-- ==== Proof.lean ====
/-
  The kernel computes a feed-forward block of two quantised linear layers: each token's row is normalised by its root
  mean square and a gain, put on the 8-bit grid of its own largest magnitude, and multiplied into weights put on a ternary
  grid by their mean magnitude; the first layer's products pass through a squared rectifier and are the rows of the
  second. The kernel does this in two tiled regions over the flattened tokens, multiplying by the reciprocal square root
  and using the grid values themselves; the reference divides by the square root and writes every grid value as
  `y + (q − y)`. On the extended reals these are two arrangements of one function wherever the inputs are real numbers,
  which the precondition says of every entry: for a positive real mean square `x / √m = x · (1/√m)`, and `y + (q − y) = q`
  for real `y`. Realness has to be carried through the first layer (its outputs are the second layer's rows): every
  quantity there is a finite combination of reals, the scales being quotients by magnitudes kept above a positive epsilon.

  The three frames: the two kernel programs' are generated; the reference's is its run with the result dropped.
  No operation was rewritten by the ideal pass, so the idealization claim is trivial. The value claim pairs the kernel's
  run, its result named as the last contents of the result buffer, with the reference's run, and shows the two results
  equal entry by entry through the two arrangements.
-/
import proofs.«151628_j58102317580688_1_alg».proof.Defs
import proofs.«151628_j58102317580688_1_alg».proof.Proof.Gen.Kernel
import proofs.«151628_j58102317580688_1_alg».proof.Proof.Gen.Kernel.Skeleton
import proofs.«151628_j58102317580688_1_alg».proof.Proof.Gen.Kernel.Launch
import proofs.«151628_j58102317580688_1_alg».proof.Proof.Gen.Kernel.Points
import proofs.«151628_j58102317580688_1_alg».proof.Proof.Gen.Kernel.Frame
import proofs.«151628_j58102317580688_1_alg».proof.Proof.Gen.KernelIdeal
import proofs.«151628_j58102317580688_1_alg».proof.Proof.Gen.KernelIdeal.Skeleton
import proofs.«151628_j58102317580688_1_alg».proof.Proof.Gen.KernelIdeal.Launch
import proofs.«151628_j58102317580688_1_alg».proof.Proof.Gen.KernelIdeal.Points
import proofs.«151628_j58102317580688_1_alg».proof.Proof.Gen.KernelIdeal.Frame
import proofs.«151628_j58102317580688_1_alg».proof.Proof.Gen.ReferenceIdeal
import proofs.«151628_j58102317580688_1_alg».proof.Proof.Gen.Pre_finite_inputs
import proofs.«151628_j58102317580688_1_alg».proof.Proof.KernelRun
import proofs.«151628_j58102317580688_1_alg».proof.Proof.KernelValue
import proofs.«151628_j58102317580688_1_alg».proof.Proof.RefValue
import proofs.«151628_j58102317580688_1_alg».proof.Proof.Bridge
import proofs.«151628_j58102317580688_1_alg».proof.Proof.PreReal
import Idealize.ShloMosaic.Adequacy
import Idealize.ShloMosaic.Init

noncomputable section

namespace Cert.Proof

open Idealize.ShloMosaic Idealize.SL.Sem Idealize.ShloMosaic.ValueIdx Cert.BitFfn

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The two results are equal entry by entry: at (b, s, o) the kernel's is the first arrangement of the block at the
    activation row (b, s), the reference's the second, over argument arrays that agree and whose entries are real. -/
theorem algebraic : Cert.algebraic_KernelIdeal_ReferenceIdeal := by
  intro m ρ m' ρ' hpre hagree
  refine ⟨fun c => Cert.KernelIdeal.Gen.W12 m ρ c (Proc.devRef .tc Cert.KernelIdeal.main_v29),
    Cert.KernelIdeal.RunV.run_named (F := Ideal) m ρ, ?_⟩
  refine (θ_run Cert.ReferenceIdeal.defs _ _).mono (fun _ h c => ⟨(h c).1.trans ?_, (h c).2⟩)
    (Cert.ReferenceIdeal.ValueP.run (F := Ideal) m' ρ')
  funext i
  obtain ⟨b, s, o, rfl⟩ : ∃ (b : Fin 4) (s : Fin 2048) (o : Fin 2048), i = ix3 b s o := ⟨i 0, i 1, i 2, eq_ix3 i⟩
  refine (Cert.ReferenceIdeal.ValueV.result_apply m' c b s o).trans ?_
  refine Eq.trans ?_ (Cert.KernelIdeal.ValueV.result_apply m ρ c b s o).symm
  obtain ⟨a0, a1, a2, a3, a4⟩ := hagree c
  rw [a0, a1, a2, a3, a4]
  obtain ⟨r0, r1, r2, r3, r4⟩ := Cert.PreReal.args_real _ _ _ _ _ (hpre c)
  exact ffnR_eq_ffnK _ _ _ _ _ _ _ o (fun k => r0 _) (fun k => r2 _) (fun j k => r1 _) (Cert.PreReal.meanAbs_real _ r1)
    (fun k => r4 _) (fun j k => r3 _) (Cert.PreReal.meanAbs_real _ r3)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
